-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S500000x16 : Shape := ⟨2, ![500000, 16]⟩
abbrev S2x500000 : Shape := ⟨2, ![2, 500000]⟩
abbrev S50000 : Shape := ⟨1, ![50000]⟩
abbrev S48x128 : Shape := ⟨2, ![48, 128]⟩
abbrev S128 : Shape := ⟨1, ![128]⟩
abbrev S3x128x128 : Shape := ⟨3, ![3, 128, 128]⟩
abbrev S3x128 : Shape := ⟨2, ![3, 128]⟩
abbrev S160x128 : Shape := ⟨2, ![160, 128]⟩
abbrev S128x1 : Shape := ⟨2, ![128, 1]⟩
abbrev S1 : Shape := ⟨1, ![1]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S160x128 : S_.BroadcastsInDim S160x128 (![] : Fin 0 → Fin S160x128.rank)
  reducesTo_S160x128_S_d0_1 : S160x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S3x128x128 .f32) (main_arg7 : FVec F S3x128 .f32) (main_arg8 : FVec F S160x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S160x128 .f32 := Host.absf main_arg8
  let main_cst_10 : FVec F S_ .f32 := constant S_ .f32 0x7F800000#32
  let main_v30 : FVec F S160x128 .f32 := broadcastInDim S160x128 ![] bcast_S_S160x128 main_cst_10
  let main_v31 : IVec S160x128 1 := cmpf .olt main_v29 main_v30
  let main_c_11 : IVec S_ 1 := constantI S_ 1 1#1
  let main_v32 : IVec S_ 1 := (fun x v => Host.reduce IntOp.andi x v reducesTo_S160x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x32 .f32) (main_arg1 : FVec F S500000x16 .f32) (main_arg2 : IVec S2x500000 32) (main_arg3 : IVec S50000 32) (main_arg4 : FVec F S48x128 .f32) (main_arg5 : FVec F S128 .f32) (main_arg6 : FVec F S3x128x128 .f32) (main_arg7 : FVec F S3x128 .f32) (main_arg8 : FVec F S160x128 .f32) (main_arg9 : FVec F S128 .f32) (main_arg10 : FVec F S128x1 .f32) (main_arg11 : FVec F S1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S48x128 .f32 := Host.absf main_arg4
  let main_cst_2 : FVec F S_ .f32 := constant S_ .f32 0x7F800000#32
  let main_v10 : FVec F S48x128 .f32 := broadcastInDim S48x128 ![] bcast_S_S48x128 main_cst_2
  let main_v11 : IVec S48x128 1 := cmpf .olt main_v9 main_v10
  let main_c_3 : IVec S_ 1 := constantI S_ 1 1#1
  let main_v12 : IVec S_ 1 := (fun x v => Host.reduce IntOp.andi x v reducesTo_S48x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x32 : Shape := ⟨2, ![50000, 32]⟩
abbrev S500000x16 : Shape := ⟨2, ![500000, 16]⟩
abbrev S2x500000 : Shape := ⟨2, ![2, 500000]⟩
abbrev S50000 : Shape := ⟨1, ![50000]⟩
abbrev S48x128 : Shape := ⟨2, ![48, 128]⟩
abbrev S128 : Shape := ⟨1, ![128]⟩
abbrev S3x128x128 : Shape := ⟨3, ![3, 128, 128]⟩
abbrev S3x128 : Shape := ⟨2, ![3, 128]⟩
abbrev S160x128 : Shape := ⟨2, ![160, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x32 : Shape := ⟨2, ![500000, 32]⟩
abbrev S32x128 : Shape := ⟨2, ![32, 128]⟩
abbrev S16x128 : Shape := ⟨2, ![16, 128]⟩
abbrev S1x128 : Shape := ⟨2, ![1, 128]⟩
abbrev S500000x128 : Shape := ⟨2, ![500000, 128]⟩
abbrev S5000x32 : Shape := ⟨2, ![5000, 32]⟩
abbrev S5000x16 : Shape := ⟨2, ![5000, 16]⟩
abbrev S5000x128 : Shape := ⟨2, ![5000, 128]⟩
abbrev S50000x128 : Shape := ⟨2, ![50000, 128]⟩
abbrev S250000x2x128 : Shape := ⟨3, ![250000, 2, 128]⟩
abbrev S1x128x128 : Shape := ⟨3, ![1, 128, 128]⟩
abbrev S128x128 : Shape := ⟨2, ![128, 128]⟩
abbrev S50000x1 : Shape := ⟨2, ![50000, 1]⟩
abbrev S1x1 : Shape := ⟨2, ![1, 1]⟩

abbrev nBuf : Space → Nat
  | .hbm => 112
  | .vmem => 48
  | .smem => 0
  | _ => 0

abbrev bufTy : (tb : Table) → Fin (tcTables nBuf tb) → BufTy
  | .hbm, ⟨0, _⟩ => ⟨S50000x32, .f32⟩
  | .hbm, ⟨1, _⟩ => ⟨S500000x16, .f32⟩
  | .hbm, ⟨2, _⟩ => ⟨S2x500000, .i32⟩
  | .hbm, ⟨3, _⟩ => ⟨S50000, .i32⟩
  | .hbm, ⟨4, _⟩ => ⟨S48x128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S160x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x32, .f32⟩
  | .hbm, ⟨25, _⟩ => ⟨S32x128, .f32⟩
  | .hbm, ⟨26, _⟩ => ⟨S16x128, .f32⟩
  | .hbm, ⟨27, _⟩ => ⟨S1x128, .f32⟩
  | .hbm, ⟨28, _⟩ => ⟨S500000x128, .f32⟩
  | .hbm, ⟨29, _⟩ => ⟨S_, .f32⟩
  | .hbm, ⟨30, _⟩ => ⟨S50000x128, .f32⟩
  | .hbm, ⟨31, _⟩ => ⟨S500000x1, .i32⟩
  | .hbm, ⟨32, _⟩ => ⟨S50000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .f32⟩
  | .hbm, ⟨42, _⟩ => ⟨S250000x2x128, .f32⟩
  | .hbm, ⟨43, _⟩ => ⟨S250000x2x128, .f32⟩
  | .hbm, ⟨44, _⟩ => ⟨S500000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S500000x128, .f32⟩
  | .hbm, ⟨51, _⟩ => ⟨S_, .f32⟩
  | .hbm, ⟨52, _⟩ => ⟨S50000x128, .f32⟩
  | .hbm, ⟨53, _⟩ => ⟨S500000x1, .i32⟩
  | .hbm, ⟨54, _⟩ => ⟨S50000x128, .f32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x128, .f32⟩
  | .hbm, ⟨64, _⟩ => ⟨S250000x2x128, .f32⟩
  | .hbm, ⟨65, _⟩ => ⟨S250000x2x128, .f32⟩
  | .hbm, ⟨66, _⟩ => ⟨S500000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S500000x128, .f32⟩
  | .hbm, ⟨73, _⟩ => ⟨S_, .f32⟩
  | .hbm, ⟨74, _⟩ => ⟨S50000x128, .f32⟩
  | .hbm, ⟨75, _⟩ => ⟨S500000x1, .i32⟩
  | .hbm, ⟨76, _⟩ => ⟨S50000x128, .f32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x128, .f32⟩
  | .hbm, ⟨86, _⟩ => ⟨S250000x2x128, .f32⟩
  | .hbm, ⟨87, _⟩ => ⟨S250000x2x128, .f32⟩
  | .hbm, ⟨88, _⟩ => ⟨S500000x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S500000x128, .f32⟩
  | .hbm, ⟨95, _⟩ => ⟨S_, .f32⟩
  | .hbm, ⟨96, _⟩ => ⟨S50000x128, .f32⟩
  | .hbm, ⟨97, _⟩ => ⟨S500000x1, .i32⟩
  | .hbm, ⟨98, _⟩ => ⟨S50000x128, .f32⟩
  | .hbm, ⟨99, _⟩ => ⟨S32x128, .f32⟩
  | .hbm, ⟨100, _⟩ => ⟨S128x128, .f32⟩
  | .hbm, ⟨101, _⟩ => ⟨S1x128, .f32⟩
  | .hbm, ⟨102, _⟩ => ⟨S50000x128, .f32⟩
  | .hbm, ⟨103, _⟩ => ⟨S_, .f32⟩
  | .hbm, ⟨104, _⟩ => ⟨S128x128, .f32⟩
  | .hbm, ⟨105, _⟩ => ⟨S50000x1, .i32⟩
  | .hbm, ⟨106, _⟩ => ⟨S128x128, .f32⟩
  | .hbm, ⟨107, _⟩ => ⟨S128x1, .f32⟩
  | .hbm, ⟨108, _⟩ => ⟨S1x1, .f32⟩
  | .hbm, ⟨109, _⟩ => ⟨S128x1, .f32⟩
  | .hbm, ⟨110, _⟩ => ⟨S128x1, .f32⟩
  | .hbm, ⟨111, _⟩ => ⟨S128, .f32⟩
  | .local _ .vmem, ⟨0, _⟩ => ⟨S5000x32, .f32⟩
  | .local _ .vmem, ⟨1, _⟩ => ⟨S5000x32, .f32⟩
  | .local _ .vmem, ⟨2, _⟩ => ⟨S5000x16, .f32⟩
  | .local _ .vmem, ⟨3, _⟩ => ⟨S5000x16, .f32⟩
  | .local _ .vmem, ⟨4, _⟩ => ⟨S32x128, .f32⟩
  | .local _ .vmem, ⟨5, _⟩ => ⟨S16x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x32, .f32⟩
  | .local _ .vmem, ⟨40, _⟩ => ⟨S5000x32, .f32⟩
  | .local _ .vmem, ⟨41, _⟩ => ⟨S5000x128, .f32⟩
  | .local _ .vmem, ⟨42, _⟩ => ⟨S5000x128, .f32⟩
  | .local _ .vmem, ⟨43, _⟩ => ⟨S32x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_v56 : Ref sig .tc := ⟨.hbm, 78, rfl⟩
abbrev main_v57 : Ref sig .tc := ⟨.hbm, 79, rfl⟩
abbrev main_c_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem5_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S48x128_S32x128_0_0 : S48x128.Slices ![0, 0] S32x128
  slices_S48x128_S16x128_32_0 : S48x128.Slices ![32, 0] S16x128
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S5000x16_S5000x16_0_0 : ∀ a, (![0, 0] : Fin 2 → Nat) a + S5000x16.size a ≤ S5000x16.size a
  h_S5000x16 : 0 < S5000x16.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S500000x128_S250000x2x128 : S500000x128.ShapeCasts S250000x2x128
  shapeCasts_S250000x2x128_S500000x128 : S250000x2x128.ShapeCasts S500000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S160x128_S32x128_0_0 : S160x128.Slices ![0, 0] S32x128
  slices_S160x128_S128x128_32_0 : S160x128.Slices ![32, 0] S128x128
  bcast_S_S128x128 : S_.BroadcastsInDim S128x128 (![] : Fin 0 → Fin S128x128.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S50000x32_S500000x1_S500000x32_1_0_n_n_0_1_132_wf : GatherDims.WF S50000x32 S500000x1 S500000x32 [1] [0] [] [0] [] 1 ![1, 32]
  dot_S5000x32_S32x128_S5000x128_1_0_0_1_n_n_wf : DotDims.WF S5000x32 S32x128 S5000x128 [1] [0] [0] [1] [] []
  dot_S5000x16_S16x128_S5000x128_1_0_0_1_n_n_wf : DotDims.WF S5000x16 S16x128 S5000x128 [1] [0] [0] [1] [] []
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  scatter_S128x128_S50000x1_S50000x128_1_0_0_1_wf : ScatterDims.WF S128x128 S50000x1 S50000x128 [1] [0] [0] 1
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S500000x32.size a
  hwx0_0 : ∀ i : grid0.Coords, EltTy.bits .f32 = 32 ∨ (Rect.block (s := S500000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S500000x16.size a
  hwx0_1 : ∀ i : grid0.Coords, EltTy.bits .f32 = 32 ∨ (Rect.block (s := S500000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S500000x128.size a
  hwx0_5 : ∀ i : grid0.Coords, EltTy.bits .f32 = 32 ∨ (Rect.block (s := S500000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S500000x128.size a
  hwx1_2 : ∀ i : grid1.Coords, EltTy.bits .f32 = 32 ∨ (Rect.block (s := S500000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S500000x128.size a
  hwx1_5 : ∀ i : grid1.Coords, EltTy.bits .f32 = 32 ∨ (Rect.block (s := S500000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S500000x128.size a
  hwx2_5 : ∀ i : grid2.Coords, EltTy.bits .f32 = 32 ∨ (Rect.block (s := S500000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .f32 = 32 ∨ (Rect.block (s := S500000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S500000x128.size a
  hwx3_1 : ∀ i : grid3.Coords, EltTy.bits .f32 = 32 ∨ (Rect.block (s := S500000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S500000x128.size a
  hwx3_2 : ∀ i : grid3.Coords, EltTy.bits .f32 = 32 ∨ (Rect.block (s := S500000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S500000x128.size a
  hwx3_5 : ∀ i : grid3.Coords, EltTy.bits .f32 = 32 ∨ (Rect.block (s := S500000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x128.size a ≤ S32x128.size a
  hwx4_2 : ∀ i : grid4.Coords, EltTy.bits .f32 = 32 ∨ (Rect.block (s := S32x128) S32x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def gather_S50000x32_S500000x1_S500000x32_1_0_n_n_0_1_132 : GatherDims S50000x32 S500000x1 S500000x32 where
  offsetDims := [1]
  collapsedSliceDims := [0]
  operandBatchingDims := []
  startIndicesBatchingDims := []
  startIndexMap := [0]
  indexVectorDim := 1
  sliceSizes := ![1, 32]
  wf := gather_S50000x32_S500000x1_S500000x32_1_0_n_n_0_1_132_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_v10) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg0) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S32x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x32 : Shape := ⟨2, ![50000, 32]⟩
abbrev S500000x16 : Shape := ⟨2, ![500000, 16]⟩
abbrev S2x500000 : Shape := ⟨2, ![2, 500000]⟩
abbrev S50000 : Shape := ⟨1, ![50000]⟩
abbrev S48x128 : Shape := ⟨2, ![48, 128]⟩
abbrev S128 : Shape := ⟨1, ![128]⟩
abbrev S3x128x128 : Shape := ⟨3, ![3, 128, 128]⟩
abbrev S3x128 : Shape := ⟨2, ![3, 128]⟩
abbrev S160x128 : Shape := ⟨2, ![160, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x32 : Shape := ⟨2, ![500000, 32]⟩
abbrev S500000x48 : Shape := ⟨2, ![500000, 48]⟩
abbrev S500000x128 : Shape := ⟨2, ![500000, 128]⟩
abbrev S1x128 : Shape := ⟨2, ![1, 128]⟩
abbrev S50000x128 : Shape := ⟨2, ![50000, 128]⟩
abbrev S250000x2x128 : Shape := ⟨3, ![250000, 2, 128]⟩
abbrev S1x128x128 : Shape := ⟨3, ![1, 128, 128]⟩
abbrev S128x128 : Shape := ⟨2, ![128, 128]⟩
abbrev S50000x160 : Shape := ⟨2, ![50000, 160]⟩
abbrev S50000x1 : Shape := ⟨2, ![50000, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S50000x32, .f32⟩
  | 1 => ⟨S500000x16, .f32⟩
  | 2 => ⟨S2x500000, .i32⟩
  | 3 => ⟨S50000, .i32⟩
  | 4 => ⟨S48x128, .f32⟩
  | 5 => ⟨S128, .f32⟩
  | 6 => ⟨S3x128x128, .f32⟩
  | 7 => ⟨S3x128, .f32⟩
  | 8 => ⟨S160x128, .f32⟩
  | 9 => ⟨S128, .f32⟩
  | 10 => ⟨S128x1, .f32⟩
  | 11 => ⟨S1, .f32⟩
  | 12 => ⟨S1x500000, .i32⟩
  | 13 => ⟨S500000, .i32⟩
  | 14 => ⟨S1x500000, .i32⟩
  | 15 => ⟨S500000, .i32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x32, .f32⟩
  | 25 => ⟨S500000x48, .f32⟩
  | 26 => ⟨S500000x128, .f32⟩
  | 27 => ⟨S1x128, .f32⟩
  | 28 => ⟨S500000x128, .f32⟩
  | 29 => ⟨S500000x128, .f32⟩
  | 30 => ⟨S_, .f32⟩
  | 31 => ⟨S500000x128, .f32⟩
  | 32 => ⟨S500000x128, .f32⟩
  | 33 => ⟨S_, .f32⟩
  | 34 => ⟨S50000x128, .f32⟩
  | 35 => ⟨S500000x1, .i32⟩
  | 36 => ⟨S50000x128, .f32⟩
  | 37 => ⟨S250000x2x128, .f32⟩
  | 38 => ⟨S250000x2x128, .f32⟩
  | 39 => ⟨S500000x128, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x128, .f32⟩
  | 49 => ⟨S500000x128, .f32⟩
  | 50 => ⟨S1x128x128, .f32⟩
  | 51 => ⟨S128x128, .f32⟩
  | 52 => ⟨S500000x128, .f32⟩
  | 53 => ⟨S1x128, .f32⟩
  | 54 => ⟨S128, .f32⟩
  | 55 => ⟨S1x128, .f32⟩
  | 56 => ⟨S500000x128, .f32⟩
  | 57 => ⟨S500000x128, .f32⟩
  | 58 => ⟨S500000x128, .f32⟩
  | 59 => ⟨S_, .f32⟩
  | 60 => ⟨S500000x128, .f32⟩
  | 61 => ⟨S500000x128, .f32⟩
  | 62 => ⟨S_, .f32⟩
  | 63 => ⟨S50000x128, .f32⟩
  | 64 => ⟨S500000x1, .i32⟩
  | 65 => ⟨S50000x128, .f32⟩
  | 66 => ⟨S250000x2x128, .f32⟩
  | 67 => ⟨S250000x2x128, .f32⟩
  | 68 => ⟨S500000x128, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000x128, .f32⟩
  | 78 => ⟨S500000x128, .f32⟩
  | 79 => ⟨S1x128x128, .f32⟩
  | 80 => ⟨S128x128, .f32⟩
  | 81 => ⟨S500000x128, .f32⟩
  | 82 => ⟨S1x128, .f32⟩
  | 83 => ⟨S128, .f32⟩
  | 84 => ⟨S1x128, .f32⟩
  | 85 => ⟨S500000x128, .f32⟩
  | 86 => ⟨S500000x128, .f32⟩
  | 87 => ⟨S500000x128, .f32⟩
  | 88 => ⟨S_, .f32⟩
  | 89 => ⟨S500000x128, .f32⟩
  | 90 => ⟨S500000x128, .f32⟩
  | 91 => ⟨S_, .f32⟩
  | 92 => ⟨S50000x128, .f32⟩
  | 93 => ⟨S500000x1, .i32⟩
  | 94 => ⟨S50000x128, .f32⟩
  | 95 => ⟨S250000x2x128, .f32⟩
  | 96 => ⟨S250000x2x128, .f32⟩
  | 97 => ⟨S500000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S500000x128, .f32⟩
  | 108 => ⟨S1x128x128, .f32⟩
  | 109 => ⟨S128x128, .f32⟩
  | 110 => ⟨S500000x128, .f32⟩
  | 111 => ⟨S1x128, .f32⟩
  | 112 => ⟨S128, .f32⟩
  | 113 => ⟨S1x128, .f32⟩
  | 114 => ⟨S500000x128, .f32⟩
  | 115 => ⟨S500000x128, .f32⟩
  | 116 => ⟨S500000x128, .f32⟩
  | 117 => ⟨S_, .f32⟩
  | 118 => ⟨S500000x128, .f32⟩
  | 119 => ⟨S500000x128, .f32⟩
  | 120 => ⟨S_, .f32⟩
  | 121 => ⟨S50000x128, .f32⟩
  | 122 => ⟨S500000x1, .i32⟩
  | 123 => ⟨S50000x128, .f32⟩
  | 124 => ⟨S50000x160, .f32⟩
  | 125 => ⟨S50000x128, .f32⟩
  | 126 => ⟨S1x128, .f32⟩
  | 127 => ⟨S50000x128, .f32⟩
  | _ => ⟨S50000x32, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .f32⟩
  | 5 => ⟨S128x128, .f32⟩
  | 6 => ⟨S50000x1, .i32⟩
  | 7 => ⟨S128x128, .f32⟩
  | 8 => ⟨S128x1, .f32⟩
  | 9 => ⟨S1x1, .f32⟩
  | 10 => ⟨S128x1, .f32⟩
  | 11 => ⟨S128x1, .f32⟩
  | 12 => ⟨S128, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call1_cst : Ref sig .tc := ⟨.hbm, 59, rfl⟩
abbrev main_call1_v0 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_4 : Ref sig .tc := ⟨.hbm, 69, rfl⟩
abbrev main_v47 : Ref sig .tc := ⟨.hbm, 70, rfl⟩
abbrev main_v48 : Ref sig .tc := ⟨.hbm, 71, rfl⟩
abbrev main_c_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_v64 : Ref sig .tc := ⟨.hbm, 90, rfl⟩
abbrev main_cst_6 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_7 : Ref sig .tc := ⟨.hbm, 98, rfl⟩
abbrev main_v71 : Ref sig .tc := ⟨.hbm, 99, rfl⟩
abbrev main_v72 : Ref sig .tc := ⟨.hbm, 100, rfl⟩
abbrev main_c_8 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call3_cst : Ref sig .tc := ⟨.hbm, 117, rfl⟩
abbrev main_call3_v0 : Ref sig .tc := ⟨.hbm, 118, rfl⟩
abbrev main_v88 : Ref sig .tc := ⟨.hbm, 119, rfl⟩
abbrev main_cst_9 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call4_cst : Ref sig .tc := ⟨.hbm, 129, rfl⟩
abbrev main_call4_v0 : Ref sig .tc := ⟨.hbm, 130, rfl⟩
abbrev main_v97 : Ref sig .tc := ⟨.hbm, 131, rfl⟩
abbrev main_cst_10 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x32_S500000x16_S500000x48_d1 : Shape.Concatenates [S500000x32, S500000x16] S500000x48 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  shapeCasts_S500000x128_S250000x2x128 : S500000x128.ShapeCasts S250000x2x128
  shapeCasts_S250000x2x128_S500000x128 : S250000x2x128.ShapeCasts S500000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x32_S50000x128_S50000x160_d1 : Shape.Concatenates [S50000x32, S50000x128] S50000x160 1
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S50000x32_S500000x1_S500000x32_1_0_n_n_0_1_132_wf : GatherDims.WF S50000x32 S500000x1 S500000x32 [1] [0] [] [0] [] 1 ![1, 32]
  dot_S500000x48_S48x128_S500000x128_1_0_0_1_n_n_wf : DotDims.WF S500000x48 S48x128 S500000x128 [1] [0] [0] [1] [] []
  scatter_S50000x128_S500000x1_S500000x128_1_0_0_1_wf : ScatterDims.WF S50000x128 S500000x1 S500000x128 [1] [0] [0] 1
  gather_S50000x128_S500000x1_S500000x128_1_0_n_n_0_1_1128_wf : GatherDims.WF S50000x128 S500000x1 S500000x128 [1] [0] [] [0] [] 1 ![1, 128]
  dot_S500000x128_S128x128_S500000x128_1_0_0_1_n_n_wf : DotDims.WF S500000x128 S128x128 S500000x128 [1] [0] [0] [1] [] []
  dot_S50000x160_S160x128_S50000x128_1_0_0_1_n_n_wf : DotDims.WF S50000x160 S160x128 S50000x128 [1] [0] [0] [1] [] []
  scatter_S128x128_S50000x1_S50000x128_1_0_0_1_wf : ScatterDims.WF S128x128 S50000x1 S50000x128 [1] [0] [0] 1
  dot_S128x128_S128x1_S128x1_1_0_0_1_n_n_wf : DotDims.WF S128x128 S128x1 S128x1 [1] [0] [0] [1] [] []

variable [Facts₀]

def gather_S50000x32_S500000x1_S500000x32_1_0_n_n_0_1_132 : GatherDims S50000x32 S500000x1 S500000x32 where
  offsetDims := [1]
  collapsedSliceDims := [0]
  operandBatchingDims := []
  startIndicesBatchingDims := []
  startIndexMap := [0]
  indexVectorDim := 1
  sliceSizes := ![1, 32]
  wf := gather_S50000x32_S500000x1_S500000x32_1_0_n_n_0_1_132_wf
def dot_S500000x48_S48x128_S500000x128_1_0_0_1_n_n : DotDims S500000x48 S48x128 S500000x128 where
  lhsContracting := [1]
  rhsContracting := [0]
  lhsNonContracting := [0]
  rhsNonContracting := [1]
  lhsBatch := []
  rhsBatch := []
  wf := dot_S500000x48_S48x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.KernelRun.lean ====
/-
  The idealized kernel program's run, with its result named.

  The program is five kernel regions among six stretches of host operations. Its run, from any memory with zero
  counters, terminates without a fault; the contents of every unscoped buffer afterwards are the fold of the stretches
  and the regions' write-backs over the launch memory (`W11`). This module states that run with the result buffer read
  off the fold beside the unchanged arguments: what the result holds is `W11` at the result's buffer, which the value
  modules then read stretch by stretch and region by region.
-/
import proofs.«131766_j5781025981003_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the fold's
    contents and every argument as launched. -/
theorem run : θ_run defs (onTc (τ := τ) (main (F := F))) ⟨m, fun _ => 0, ρ⟩ (fun r => ∀ c : Dev nD,
      r.2.mem ((c.tc : Thread nD τ).loc main_v86) = W11 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v86 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.RunValue

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.LibTileRows.lean ====
/-
  A tile of rows of a matrix product, and a bias row added to every row.

  `rowsProd X W` is the product of an [M, K] array and a [K, N] array entry by entry: at (r, c) the sum over a < K of
  X(r, a) · W(a, c). On the extended reals the host's product with plain dimension numbers (the left operand's axis 1
  contracted against the right operand's axis 0, no batch axis) is this array. A kernel that walks the rows in tiles
  multiplies, at each tile, the tile's rows [Mb, K] by the whole of W into a zero accumulator: when the tile's rows are
  the rows o, o + 1, … of X, what it leaves at (p, c) is `rowsProd X W` at (o + p, c) — a row of the product depends on
  that row of X only.

  `rowsBias A B` adds the one row B [1, N] to every row of A [M, N]. A tile of rows of A with the same B added to each
  row is the tile of `rowsBias A B`.
-/
import proofs.«131766_j5781025981003_1_alg».proof.Proof.LibMatmulRows
import proofs.«131766_j5781025981003_1_alg».proof.Proof.LibDotRows
import Idealize.ShloMosaic.Lib.Pipeline.Value
import Idealize.ShloMosaic.Lib.ValueLayout

noncomputable section

namespace Cert.LibTileRows

open Idealize.ShloMosaic Idealize.ShloMosaic.ValueIdx

/-- The product of an [M, K] and a [K, N] array, entry by entry. -/
def rowsProd {M K N : Nat} (X : (⟨2, ![M, K]⟩ : Shape).Idx → EReal) (W : (⟨2, ![K, N]⟩ : Shape).Idx → EReal) :
    (⟨2, ![M, N]⟩ : Shape).Idx → EReal :=
  fun i => ∑ a : Fin K, X (ix2 (i 0) a) * W (ix2 a (i 1))

/-- The host's plain product is `rowsProd`. -/
theorem rowsProd_eq_dot {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (X : FVec Ideal ⟨2, ![M, K]⟩ .f32) (W : FVec Ideal ⟨2, ![K, N]⟩ .f32) :
    rowsProd X W = Host.dotGeneral (F := Ideal) d none X W := by
  funext i
  obtain ⟨p, q, rfl⟩ : ∃ (p : Fin M) (q : Fin N), i = ix2 p q := ⟨i 0, i 1, eq_ix2 i⟩
  exact (Cert.LibDotRows.dotGeneral_ix2 d hr hs hl0 hl1 hr0 hr1 none X W p q).symm

/-- A tile of rows times the whole right operand, into the zero accumulator: the tile of the whole product whose rows
    start at row `o`. -/
theorem tile_rowsProd {Mb M K N : Nat} {φ₁ φ₂ : FTy} (d : DotDims ⟨2, ![Mb, K]⟩ ⟨2, ![K, N]⟩ ⟨2, ![Mb, N]⟩)
    (hr : d.contr.rank = 1) (hs : d.contr.size ⟨0, by omega⟩ = K)
    (hl0 : ∀ (i : (⟨2, ![Mb, N]⟩ : Shape).Idx) (q : d.contr.Idx), (d.lhsIdx i q 0).val = (i 0).val)
    (hl1 : ∀ (i : (⟨2, ![Mb, N]⟩ : Shape).Idx) (q : d.contr.Idx), (d.lhsIdx i q 1).val = (q ⟨0, by omega⟩).val)
    (hr0 : ∀ (i : (⟨2, ![Mb, N]⟩ : Shape).Idx) (q : d.contr.Idx), (d.rhsIdx i q 0).val = (q ⟨0, by omega⟩).val)
    (hr1 : ∀ (i : (⟨2, ![Mb, N]⟩ : Shape).Idx) (q : d.contr.Idx), (d.rhsIdx i q 1).val = (i 1).val)
    (prec : Option ContractPrecision) (l : FVec Ideal ⟨2, ![Mb, K]⟩ φ₁) (r : FVec Ideal ⟨2, ![K, N]⟩ φ₂)
    (X : (⟨2, ![M, K]⟩ : Shape).Idx → EReal) (W : (⟨2, ![K, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x)
    (y : (⟨2, ![Mb, N]⟩ : Shape).Idx) (i : (⟨2, ![M, N]⟩ : Shape).Idx)
    (hi0 : (i 0).val = o + (y 0).val) (hi1 : (i 1).val = (y 1).val) :
    matmul d prec l r (constant ⟨2, ![Mb, N]⟩ .f32 0x00000000#32) y = rowsProd X W i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [Cert.LibMatmulRows.matmul_zero_ix2 d hr hs hl0 hl1 hr0 hr1 prec l r p v]
  unfold rowsProd
  refine Finset.sum_congr rfl fun a _ => ?_
  rw [hX (ix2 p a) (ix2 u a) hi0 rfl, hW]
  rfl

/-- One row added to every row. -/
def rowsBias {M N : Nat} (A : (⟨2, ![M, N]⟩ : Shape).Idx → EReal) (B : (⟨2, ![1, N]⟩ : Shape).Idx → EReal) :
    (⟨2, ![M, N]⟩ : Shape).Idx → EReal :=
  fun i => A i + B (ix2 (0 : Fin 1) (i 1))

/-- One row added to every row, then the maximum with the float word zero (a rectifier). -/
def rowsBiasRelu {M N : Nat} (A : (⟨2, ![M, N]⟩ : Shape).Idx → EReal) (B : (⟨2, ![1, N]⟩ : Shape).Idx → EReal) :
    (⟨2, ![M, N]⟩ : Shape).Idx → EReal :=
  fun i => max (rowsBias A B i) (Ideal.ofBits .f32 0x00000000#32)

/-- A tile of rows with the one row `b` broadcast over it and added: the tile of `rowsBias A B` whose rows start at
    row `o`, when the tile holds rows `o`, `o + 1`, … of `A` and `b` is `B`. -/
theorem tile_rowsBias {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    a y + broadcastTo ⟨2, ![Mb, N]⟩ b hb y = rowsBias A B i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [broadcastTo_1b_ab_apply b hb p v, hA (ix2 p v) (ix2 u v) hi0 rfl, hB]
  rfl

/-- One row added to every row is the sum with the row broadcast along axis 0 (a `broadcast_in_dim` of [1, N] to
    [M, N] that keeps both axes). -/
theorem rowsBias_eq_add {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1]) :
    rowsBias A B = addf A (broadcastInDim ⟨2, ![M, N]⟩ ![0, 1] hb B) := by
  funext i
  obtain ⟨p, q, rfl⟩ : ∃ (p : Fin M) (q : Fin N), i = ix2 p q := ⟨i 0, i 1, eq_ix2 i⟩
  rw [addf_apply, broadcastInDim_apply ![0, 1] hb B (ix2 p q) (ix2 (0 : Fin 1) q) ?_]
  · rfl
  · intro a
    match a with
    | ⟨0, _⟩ => rfl
    | ⟨1, _⟩ =>
      show q.val = if N = 1 then 0 else q.val
      split
      · have := q.isLt; omega
      · rfl

/-- The same followed by the maximum with zero, the zero spelt as a scalar constant broadcast to the whole shape. -/
theorem rowsBiasRelu_eq_max {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1])
    (h0 : (⟨0, ![]⟩ : Shape).BroadcastsInDim ⟨2, ![M, N]⟩ ![]) :
    rowsBiasRelu A B = maximumf (addf A (broadcastInDim ⟨2, ![M, N]⟩ ![0, 1] hb B))
      (broadcastInDim ⟨2, ![M, N]⟩ ![] h0 (constant (F := Ideal) ⟨0, ![]⟩ .f32 0x00000000#32)) := by
  funext i
  rw [maximumf_apply, ← rowsBias_eq_add A B hb,
    broadcastInDim_apply ![] h0 (constant (F := Ideal) ⟨0, ![]⟩ .f32 0x00000000#32) i ix0 (fun a => a.elim0)]
  rfl

end Cert.LibTileRows

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.LibDenseTile.lean ====
/-
  A dense layer with a rectifier, and two arrays laid side by side, computed on a tile of rows.

  A kernel that walks the rows of an [M, K] array X in tiles computes, on the tile whose rows are rows o, o + 1, … of
  X, the product of the tile with a [K, N] array W into a zero accumulator, adds the one row B to every row, takes
  the maximum with zero and changes the float format. On the extended reals the change of format is the identity,
  and what the kernel leaves at row p, column c of the tile is the whole-array function
  `rowsBiasRelu (rowsProd X W) B` at row o + p, column c: a row of the result depends on that row of X only.

  `joinCols P Q` lays an [M, A] array and an [M, B] array side by side: column a < A of the result is column a of P,
  column A + b is column b of Q. A tile of rows of P beside the same tile of rows of Q is that tile of `joinCols P Q`.
-/
import proofs.«131766_j5781025981003_1_alg».proof.Proof.LibTileRows
import proofs.«131766_j5781025981003_1_alg».proof.Proof.LibPlainDot

noncomputable section

namespace Cert.LibDenseTile

open Idealize.ShloMosaic Idealize.ShloMosaic.ValueIdx Cert.LibTileRows Cert.LibPlainDot

/-- The tile's dense layer with rectifier is the tile of the whole-array one. -/
theorem tile_denseRelu {Mb M K N : Nat} {φ₁ φ₂ ψ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩) (hψ : ψ.bits < FTy.f32.bits)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (truncf ψ (maximumf (addf (matmul d none l r (constant ⟨2, ![Mb, N]⟩ .f32 0x00000000#32)) (broadcastTo ⟨2, ![Mb, N]⟩ b hb))
        (broadcast ⟨2, ![Mb, N]⟩ (Scalar.ofBits .f32 0x00000000#32))) hψ : FVec Ideal ⟨2, ![Mb, N]⟩ ψ) y
      = rowsBiasRelu (rowsProd X W) B i := by
  show max (matmul d none l r (constant ⟨2, ![Mb, N]⟩ .f32 0x00000000#32) y + broadcastTo ⟨2, ![Mb, N]⟩ b hb y)
      (Ideal.ofBits .f32 0x00000000#32) = max (rowsBias (rowsProd X W) B i) (Ideal.ofBits .f32 0x00000000#32)
  rw [tile_rowsBias _ b hb (rowsProd X W) B o
    (fun x k e0 e1 => tile_rowsProd d hd.rank hd.size hd.lhs0 hd.lhs1 hd.rhs0 hd.rhs1 none l r X W o hX hW x k e0 e1)
    hB y i hi0 hi1]

/-- The tile's plain product plus a bias row is the tile of the whole-array one. -/
theorem tile_dense {Mb M K N : Nat} {φ₁ φ₂ : FTy} (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂) (b : FVec Ideal ⟨2, ![1, N]⟩ .f32)
    (hb : (⟨2, ![1, N]⟩ : Shape).Broadcasts ⟨2, ![Mb, N]⟩)
    (X : (⟨2, ![M, K]⟩ : Shape).Idx → EReal) (W : (⟨2, ![K, N]⟩ : Shape).Idx → EReal)
    (B : (⟨2, ![1, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (addf (matmul d none l r (constant ⟨2, ![Mb, N]⟩ .f32 0x00000000#32)) (broadcastTo ⟨2, ![Mb, N]⟩ b hb) : FVec Ideal ⟨2, ![Mb, N]⟩ .f32) y
      = rowsBias (rowsProd X W) B i :=
  tile_rowsBias _ b hb (rowsProd X W) B o
    (fun x k e0 e1 => tile_rowsProd d hd.rank hd.size hd.lhs0 hd.lhs1 hd.rhs0 hd.rhs1 none l r X W o hX hW x k e0 e1)
    hB y i hi0 hi1

/-- Two arrays with the same rows laid side by side (columns past both are zero; there are none when C = A + B). -/
def joinCols {M A B C : Nat} (P : (⟨2, ![M, A]⟩ : Shape).Idx → EReal) (Q : (⟨2, ![M, B]⟩ : Shape).Idx → EReal) :
    (⟨2, ![M, C]⟩ : Shape).Idx → EReal :=
  fun i => if h : (i 1).val < A then P (ix2 (i 0) ⟨(i 1).val, h⟩)
    else if h' : (i 1).val - A < B then Q (ix2 (i 0) ⟨(i 1).val - A, h'⟩) else 0

/-- A tile of rows of P beside the same tile of rows of Q is that tile of `joinCols P Q`. -/
theorem tile_joinCols {Mb M A B C : Nat} (p : (⟨2, ![Mb, A]⟩ : Shape).Idx → EReal) (q : (⟨2, ![Mb, B]⟩ : Shape).Idx → EReal)
    (hc : Shape.Concatenates [⟨2, ![Mb, A]⟩, ⟨2, ![Mb, B]⟩] ⟨2, ![Mb, C]⟩ 1) (hC : C = A + B)
    (P : (⟨2, ![M, A]⟩ : Shape).Idx → EReal) (Q : (⟨2, ![M, B]⟩ : Shape).Idx → EReal) (o : Nat)
    (hP : ∀ (x : (⟨2, ![Mb, A]⟩ : Shape).Idx) (k : (⟨2, ![M, A]⟩ : Shape).Idx),
      (k 0).val = o + (x 0).val → (k 1).val = (x 1).val → p x = P k)
    (hQ : ∀ (x : (⟨2, ![Mb, B]⟩ : Shape).Idx) (k : (⟨2, ![M, B]⟩ : Shape).Idx),
      (k 0).val = o + (x 0).val → (k 1).val = (x 1).val → q x = Q k)
    (y : (⟨2, ![Mb, C]⟩ : Shape).Idx) (i : (⟨2, ![M, C]⟩ : Shape).Idx)
    (hi0 : (i 0).val = o + (y 0).val) (hi1 : (i 1).val = (y 1).val) :
    concatenate ⟨2, ![Mb, C]⟩ 1 [⟨⟨2, ![Mb, A]⟩, p⟩, ⟨⟨2, ![Mb, B]⟩, q⟩] hc y = joinCols P Q i := by
  have hy1 : (y 1).val < C := idx2_lt1 y
  unfold joinCols
  by_cases h : (y 1).val < A
  · have h' : (i 1).val < A := by omega
    rw [dif_pos h', concatenate_pair_apply_left (1 : Fin 2) p q hc y rfl (ix2 (y 0) ⟨(y 1).val, h⟩)
      (fun b => by match b with | ⟨0, _⟩ => rfl | ⟨1, _⟩ => rfl)]
    exact hP _ _ hi0 hi1
  · have h' : ¬ (i 1).val < A := by omega
    have h2 : (y 1).val - A < B := by omega
    have h2' : (i 1).val - A < B := by omega
    rw [dif_neg h', dif_pos h2', concatenate_pair_apply_right (1 : Fin 2) p q hc y rfl rfl (ix2 (y 0) ⟨(y 1).val - A, h2⟩)
      (fun b hb => by match b with | ⟨0, _⟩ => rfl | ⟨1, _⟩ => exact absurd rfl hb)
      (by show (y 1).val - A + A = (y 1).val; omega)]
    exact hQ _ _ hi0 (by show (i 1).val - A = (y 1).val - A; omega)

end Cert.LibDenseTile

end
-- ==== Proof.LibEdgeDense.lean ====
/-
  Two dense steps of an edge-message graph network, as functions of whole arrays, and their row tiles.

  `dense2Relu X1 X2 W1 W2 B` is, entry by entry, the rectified sum of two matrix products and a bias row:
      max ((∑ a, X1(r, a) · W1(a, c)) + (∑ a, X2(r, a) · W2(a, c)) + B(0, c)) 0
  for X1 [M, K1], X2 [M, K2], W1 [K1, N], W2 [K2, N] and the one row B [1, N].

  `convRelu A R W B H` is the message step with a residual:
      max ((∑ a, (A(r, a) − R(r, a)) · W(a, c)) + B(0, c) + H(r, c)) 0
  for A, R [M, K], W [K, N], B [1, N] and H [M, N].

  In both, row r of the result depends on row r of the row-indexed operands only. So a kernel that walks the rows in
  tiles, and computes on the tile whose rows are rows o, o + 1, … of the operands the same products into zero
  accumulators, the same sums and the maximum with zero, leaves in the tile exactly the tile of the whole-array
  function. No law of the extended reals is used: both sides are the same sums in the same order.
-/
import proofs.«131766_j5781025981003_1_alg».proof.Proof.LibTileRows
import proofs.«131766_j5781025981003_1_alg».proof.Proof.LibPlainDot
import proofs.«131766_j5781025981003_1_alg».proof.Proof.LibDenseTile

noncomputable section

namespace Cert.LibEdgeDense

open Idealize.ShloMosaic Idealize.ShloMosaic.ValueIdx Cert.LibTileRows Cert.LibPlainDot Cert.LibDenseTile

/-- Two products summed, one row added to every row, the maximum with zero. -/
def dense2Relu {M K1 K2 N : Nat} (X1 : (⟨2, ![M, K1]⟩ : Shape).Idx → EReal) (X2 : (⟨2, ![M, K2]⟩ : Shape).Idx → EReal)
    (W1 : (⟨2, ![K1, N]⟩ : Shape).Idx → EReal) (W2 : (⟨2, ![K2, N]⟩ : Shape).Idx → EReal)
    (B : (⟨2, ![1, N]⟩ : Shape).Idx → EReal) : (⟨2, ![M, N]⟩ : Shape).Idx → EReal :=
  rowsBiasRelu (fun i => rowsProd X1 W1 i + rowsProd X2 W2 i) B

/-- The tile's two products, their sum, the bias row and the rectifier are the tile of `dense2Relu` whose rows start at
    row `o`, when the tile's row operands hold rows o, o + 1, … of X1 and X2 and the other operands are whole. -/
theorem tile_dense2Relu {Mb M K1 K2 N : Nat} {φ₁ φ₂ φ₃ φ₄ : FTy}
    (d1 : DotDims ⟨2, ![Mb, K1]⟩ ⟨2, ![K1, N]⟩ ⟨2, ![Mb, N]⟩) (hd1 : Plain d1)
    (d2 : DotDims ⟨2, ![Mb, K2]⟩ ⟨2, ![K2, N]⟩ ⟨2, ![Mb, N]⟩) (hd2 : Plain d2)
    (l1 : FVec Ideal ⟨2, ![Mb, K1]⟩ φ₁) (r1 : FVec Ideal ⟨2, ![K1, N]⟩ φ₂)
    (l2 : FVec Ideal ⟨2, ![Mb, K2]⟩ φ₃) (r2 : FVec Ideal ⟨2, ![K2, N]⟩ φ₄)
    (b : FVec Ideal ⟨2, ![1, N]⟩ .f32) (hb : (⟨2, ![1, N]⟩ : Shape).Broadcasts ⟨2, ![Mb, N]⟩)
    (X1 : (⟨2, ![M, K1]⟩ : Shape).Idx → EReal) (X2 : (⟨2, ![M, K2]⟩ : Shape).Idx → EReal)
    (W1 : (⟨2, ![K1, N]⟩ : Shape).Idx → EReal) (W2 : (⟨2, ![K2, N]⟩ : Shape).Idx → EReal)
    (B : (⟨2, ![1, N]⟩ : Shape).Idx → EReal) (o : Nat)
    (hX1 : ∀ (x : (⟨2, ![Mb, K1]⟩ : Shape).Idx) (k : (⟨2, ![M, K1]⟩ : Shape).Idx),
      (k 0).val = o + (x 0).val → (k 1).val = (x 1).val → l1 x = X1 k)
    (hX2 : ∀ (x : (⟨2, ![Mb, K2]⟩ : Shape).Idx) (k : (⟨2, ![M, K2]⟩ : Shape).Idx),
      (k 0).val = o + (x 0).val → (k 1).val = (x 1).val → l2 x = X2 k)
    (hW1 : ∀ x, r1 x = W1 x) (hW2 : ∀ x, r2 x = W2 x) (hB : ∀ x, b x = B x)
    (y : (⟨2, ![Mb, N]⟩ : Shape).Idx) (i : (⟨2, ![M, N]⟩ : Shape).Idx)
    (hi0 : (i 0).val = o + (y 0).val) (hi1 : (i 1).val = (y 1).val) :
    (maximumf (addf (addf (matmul d1 none l1 r1 (constant ⟨2, ![Mb, N]⟩ .f32 0x00000000#32))
          (matmul d2 none l2 r2 (constant ⟨2, ![Mb, N]⟩ .f32 0x00000000#32))) (broadcastTo ⟨2, ![Mb, N]⟩ b hb))
        (broadcast ⟨2, ![Mb, N]⟩ (Scalar.ofBits .f32 0x00000000#32)) : FVec Ideal ⟨2, ![Mb, N]⟩ .f32) y
      = dense2Relu X1 X2 W1 W2 B i := by
  show max ((matmul d1 none l1 r1 (constant ⟨2, ![Mb, N]⟩ .f32 0x00000000#32) y
        + matmul d2 none l2 r2 (constant ⟨2, ![Mb, N]⟩ .f32 0x00000000#32) y) + broadcastTo ⟨2, ![Mb, N]⟩ b hb y)
      (Ideal.ofBits .f32 0x00000000#32)
    = max (rowsBias (fun i => rowsProd X1 W1 i + rowsProd X2 W2 i) B i) (Ideal.ofBits .f32 0x00000000#32)
  refine congrArg (fun z => max z (Ideal.ofBits .f32 0x00000000#32)) ?_
  exact tile_rowsBias
    (fun x => matmul d1 none l1 r1 (constant ⟨2, ![Mb, N]⟩ .f32 0x00000000#32) x
      + matmul d2 none l2 r2 (constant ⟨2, ![Mb, N]⟩ .f32 0x00000000#32) x)
    b hb (fun i => rowsProd X1 W1 i + rowsProd X2 W2 i) B o
    (fun x k e0 e1 => congrArg₂ (· + ·)
      (tile_rowsProd d1 hd1.rank hd1.size hd1.lhs0 hd1.lhs1 hd1.rhs0 hd1.rhs1 none l1 r1 X1 W1 o hX1 hW1 x k e0 e1)
      (tile_rowsProd d2 hd2.rank hd2.size hd2.lhs0 hd2.lhs1 hd2.rhs0 hd2.rhs1 none l2 r2 X2 W2 o hX2 hW2 x k e0 e1))
    hB y i hi0 hi1

/-- The message step: the product of the difference A − R with W, one row added to every row, the residual H added, the
    maximum with zero. -/
def convRelu {M K N : Nat} (A R : FVec Ideal ⟨2, ![M, K]⟩ .f32) (W : (⟨2, ![K, N]⟩ : Shape).Idx → EReal)
    (B : (⟨2, ![1, N]⟩ : Shape).Idx → EReal) (H : (⟨2, ![M, N]⟩ : Shape).Idx → EReal) :
    (⟨2, ![M, N]⟩ : Shape).Idx → EReal :=
  fun i => max (rowsBias (rowsProd (subf A R) W) B i + H i) (Ideal.ofBits .f32 0x00000000#32)

/-- The tile's message step is the tile of `convRelu` whose rows start at row `o`, when the tile's left operand holds
    rows o, o + 1, … of A − R, its residual rows o, o + 1, … of H, and W and B are whole. -/
theorem tile_convRelu {Mb M K N : Nat} {φ₁ φ₂ : FTy}
    (d : DotDims ⟨2, ![Mb, K]⟩ ⟨2, ![K, N]⟩ ⟨2, ![Mb, N]⟩) (hd : Plain d)
    (l : FVec Ideal ⟨2, ![Mb, K]⟩ φ₁) (r : FVec Ideal ⟨2, ![K, N]⟩ φ₂)
    (b : FVec Ideal ⟨2, ![1, N]⟩ .f32) (hb : (⟨2, ![1, N]⟩ : Shape).Broadcasts ⟨2, ![Mb, N]⟩)
    (h : FVec Ideal ⟨2, ![Mb, N]⟩ .f32)
    (A R : FVec Ideal ⟨2, ![M, K]⟩ .f32) (W : (⟨2, ![K, N]⟩ : Shape).Idx → EReal)
    (B : (⟨2, ![1, N]⟩ : Shape).Idx → EReal) (H : (⟨2, ![M, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = subf A R k)
    (hW : ∀ x, r x = W x) (hB : ∀ x, b x = B x)
    (hH : ∀ (x : (⟨2, ![Mb, N]⟩ : Shape).Idx) (k : (⟨2, ![M, N]⟩ : Shape).Idx),
      (k 0).val = o + (x 0).val → (k 1).val = (x 1).val → h x = H k)
    (y : (⟨2, ![Mb, N]⟩ : Shape).Idx) (i : (⟨2, ![M, N]⟩ : Shape).Idx)
    (hi0 : (i 0).val = o + (y 0).val) (hi1 : (i 1).val = (y 1).val) :
    (maximumf (addf (addf (matmul d none l r (constant ⟨2, ![Mb, N]⟩ .f32 0x00000000#32)) (broadcastTo ⟨2, ![Mb, N]⟩ b hb)) h)
        (broadcast ⟨2, ![Mb, N]⟩ (Scalar.ofBits .f32 0x00000000#32)) : FVec Ideal ⟨2, ![Mb, N]⟩ .f32) y
      = convRelu A R W B H i := by
  show max ((addf (matmul d none l r (constant ⟨2, ![Mb, N]⟩ .f32 0x00000000#32)) (broadcastTo ⟨2, ![Mb, N]⟩ b hb) : FVec Ideal ⟨2, ![Mb, N]⟩ .f32) y + h y)
      (Ideal.ofBits .f32 0x00000000#32)
    = max (rowsBias (rowsProd (subf A R) W) B i + H i) (Ideal.ofBits .f32 0x00000000#32)
  rw [tile_dense d hd l r b hb (subf A R) W B o hX hW hB y i hi0 hi1, hH y i hi0 hi1]

end Cert.LibEdgeDense

end
-- ==== Proof.LibSageDense.lean ====
/-
  The dense step of a mean-aggregating graph convolution, as one function of whole arrays, and its row tiles.

  For node features h [M, K], aggregated neighbour features a [M, K], two weight matrices ws, wn [K, N] and a bias
  b [N], the step is
      lin h a ws wn b (r, c) = (∑ k, h(r, k) · ws(k, c)) + (∑ k, a(r, k) · wn(k, c)) + b(c),
  and, with the leaky rectifier z ↦ z if z ≥ 0 else s · z (s the float word 0x3C23D70A) applied entry by entry,
      linAct h a ws wn b (r, c) = leaky (lin h a ws wn b (r, c)).
  A row of the result depends on that row of h and of a only. So a kernel that walks the rows in tiles and computes,
  from a tile's rows of h and a and the whole of ws, wn and b, the two products into zero accumulators, their sum, the
  bias row added to every row (and the rectifier) leaves in the tile exactly the tile of `lin` (of `linAct`).
  No law of the extended reals is used: both sides are the same sums in the same order.
-/
import proofs.«131766_j5781025981003_1_alg».proof.Proof.LibTileRows
import proofs.«131766_j5781025981003_1_alg».proof.Proof.LibPlainDot

noncomputable section

namespace Cert.LibSageDense

open Idealize.ShloMosaic Idealize.ShloMosaic.ValueIdx Cert.LibTileRows Cert.LibPlainDot

/-- A vector as the one row of a [1, N] array. -/
def rowOf {N : Nat} (b : (⟨1, ![N]⟩ : Shape).Idx → EReal) : (⟨2, ![1, N]⟩ : Shape).Idx → EReal := fun i => b (ix1 (i 1))

/-- The two products, summed, plus the bias on every row. -/
def lin {M K N : Nat} (h a : (⟨2, ![M, K]⟩ : Shape).Idx → EReal) (ws wn : (⟨2, ![K, N]⟩ : Shape).Idx → EReal)
    (b : (⟨1, ![N]⟩ : Shape).Idx → EReal) : (⟨2, ![M, N]⟩ : Shape).Idx → EReal :=
  rowsBias (fun i => rowsProd h ws i + rowsProd a wn i) (rowOf b)

/-- The leaky rectifier on one extended real: the number itself where the float comparison "≥ 0" holds, the slope word
    times the number elsewhere. -/
def leaky (z : Ideal .f32) : Ideal .f32 :=
  Scalar.select (FloatOps.cmpf (F := Ideal) .oge z (Ideal.ofBits .f32 0x00000000#32)) z (Ideal.ofBits .f32 0x3C23D70A#32 * z)

/-- The step followed by the rectifier, entry by entry. -/
def linAct {M K N : Nat} (h a : (⟨2, ![M, K]⟩ : Shape).Idx → EReal) (ws wn : (⟨2, ![K, N]⟩ : Shape).Idx → EReal)
    (b : (⟨1, ![N]⟩ : Shape).Idx → EReal) : (⟨2, ![M, N]⟩ : Shape).Idx → EReal :=
  fun i => leaky (lin h a ws wn b i)

section Tile

variable {Mb M K N : Nat} (d : DotDims ⟨2, ![Mb, K]⟩ ⟨2, ![K, N]⟩ ⟨2, ![Mb, N]⟩) (hd : Plain d)
  (hbf : FTy.bf16.bits < FTy.f32.bits)
  (hsc : (⟨2, ![Mb, K]⟩ : Shape).ShapeCasts ⟨2, ![Mb, K]⟩) (hsc1 : (⟨1, ![N]⟩ : Shape).ShapeCasts ⟨2, ![1, N]⟩)
  (hbc : (⟨2, ![1, N]⟩ : Shape).Broadcasts ⟨2, ![Mb, N]⟩)
  (v0 v2 : FVec Ideal ⟨2, ![Mb, K]⟩ .f32) (v5 v7 : FVec Ideal ⟨2, ![K, N]⟩ .f32) (v12 : FVec Ideal ⟨1, ![N]⟩ .f32)
  (h a : (⟨2, ![M, K]⟩ : Shape).Idx → EReal) (ws wn : (⟨2, ![K, N]⟩ : Shape).Idx → EReal) (b : (⟨1, ![N]⟩ : Shape).Idx → EReal)
  (o : Nat)

/-- The tile's pre-activation: two products of the tile's rows (rounded to bf16, which at the ideal instance is the
    identity) into zero accumulators, summed, the bias row broadcast over the rows and added. -/
def tileLin : FVec Ideal ⟨2, ![Mb, N]⟩ .f32 :=
  addf (addf (matmul d none (truncf .bf16 v0 hbf) (truncf .bf16 v5 hbf) (constant ⟨2, ![Mb, N]⟩ .f32 0x00000000#32))
      (matmul d none (truncf .bf16 (shapeCast ⟨2, ![Mb, K]⟩ v2 hsc) hbf) (truncf .bf16 v7 hbf) (constant ⟨2, ![Mb, N]⟩ .f32 0x00000000#32)))
    (broadcastTo ⟨2, ![Mb, N]⟩ (shapeCast ⟨2, ![1, N]⟩ v12 hsc1) hbc)

include hd in
/-- The tile's pre-activation is the tile of `lin` whose rows start at row `o`, when the tile's operands hold rows
    o, o + 1, … of h and of a and the whole of ws, wn and b. -/
theorem tileLin_eq
    (h0 : ∀ (x : (⟨2, ![Mb, K]⟩ : Shape).Idx) (k : (⟨2, ![M, K]⟩ : Shape).Idx),
      (k 0).val = o + (x 0).val → (k 1).val = (x 1).val → v0 x = h k)
    (h2 : ∀ (x : (⟨2, ![Mb, K]⟩ : Shape).Idx) (k : (⟨2, ![M, K]⟩ : Shape).Idx),
      (k 0).val = o + (x 0).val → (k 1).val = (x 1).val → v2 x = a k)
    (h5 : ∀ x, v5 x = ws x) (h7 : ∀ x, v7 x = wn x) (h12 : ∀ x, v12 x = b x)
    (y : (⟨2, ![Mb, N]⟩ : Shape).Idx) (i : (⟨2, ![M, N]⟩ : Shape).Idx)
    (hi0 : (i 0).val = o + (y 0).val) (hi1 : (i 1).val = (y 1).val) :
    tileLin d hbf hsc hsc1 hbc v0 v2 v5 v7 v12 y = lin h a ws wn b i := by
  unfold tileLin lin
  rw [addf_apply]
  refine tile_rowsBias _ _ hbc _ (rowOf b) o ?_ ?_ y i hi0 hi1
  · intro x k hk0 hk1
    rw [addf_apply]
    rw [tile_rowsProd d hd.rank hd.size hd.lhs0 hd.lhs1 hd.rhs0 hd.rhs1 none _ _ h ws o
        (fun x' k' e0 e1 => (truncf_apply v0 hbf x').trans (h0 x' k' e0 e1))
        (fun x' => (truncf_apply v5 hbf x').trans (h5 x')) x k hk0 hk1,
      tile_rowsProd d hd.rank hd.size hd.lhs0 hd.lhs1 hd.rhs0 hd.rhs1 none _ _ a wn o
        (fun x' k' e0 e1 => (truncf_apply _ hbf x').trans ((congrFun (shapeCast_self v2 hsc) x').trans (h2 x' k' e0 e1)))
        (fun x' => (truncf_apply v7 hbf x').trans (h7 x')) x k hk0 hk1]
  · intro x
    obtain ⟨p, q, rfl⟩ : ∃ (p : Fin 1) (q : Fin N), x = ix2 p q := ⟨x 0, x 1, eq_ix2 x⟩
    rw [shapeCast_a_1a_apply v12 hsc1 p q, h12]
    rfl

include hd in
/-- The same with the rectifier on top: the tile of `linAct`. -/
theorem tileLinAct_eq
    (h0 : ∀ (x : (⟨2, ![Mb, K]⟩ : Shape).Idx) (k : (⟨2, ![M, K]⟩ : Shape).Idx),
      (k 0).val = o + (x 0).val → (k 1).val = (x 1).val → v0 x = h k)
    (h2 : ∀ (x : (⟨2, ![Mb, K]⟩ : Shape).Idx) (k : (⟨2, ![M, K]⟩ : Shape).Idx),
      (k 0).val = o + (x 0).val → (k 1).val = (x 1).val → v2 x = a k)
    (h5 : ∀ x, v5 x = ws x) (h7 : ∀ x, v7 x = wn x) (h12 : ∀ x, v12 x = b x)
    (y : (⟨2, ![Mb, N]⟩ : Shape).Idx) (i : (⟨2, ![M, N]⟩ : Shape).Idx)
    (hi0 : (i 0).val = o + (y 0).val) (hi1 : (i 1).val = (y 1).val) :
    select (cmpf .oge (tileLin d hbf hsc hsc1 hbc v0 v2 v5 v7 v12) (broadcast ⟨2, ![Mb, N]⟩ (Scalar.ofBits (F := Ideal) .f32 0x00000000#32)))
        (tileLin d hbf hsc hsc1 hbc v0 v2 v5 v7 v12)
        (mulf (broadcast ⟨2, ![Mb, N]⟩ (Scalar.ofBits (F := Ideal) .f32 0x3C23D70A#32)) (tileLin d hbf hsc hsc1 hbc v0 v2 v5 v7 v12)) y
      = linAct h a ws wn b i := by
  rw [select_apply, cmpf_apply, mulf_apply, broadcast_apply, broadcast_apply,
    tileLin_eq d hd hbf hsc hsc1 hbc v0 v2 v5 v7 v12 h a ws wn b o h0 h2 h5 h7 h12 y i hi0 hi1]
  rfl

end Tile

end Cert.LibSageDense

end
-- ==== Proof.LibSageDenseHost.lean ====
/-
  The dense step in the host's spelling.

  On the extended reals the whole-array dense step `LibSageDense.lin` is what a host program computes with two plain
  matrix products, their sum, and the bias vector laid out as one row and then broadcast over the rows and added; and
  `LibSageDense.linAct` is that followed by the host's leaky rectifier, spelt select (x ≥ 0) x (s · x) with the two
  scalar constants broadcast to the whole shape. Both sides are the same sums and the same scalar operations entry by
  entry; no law of the extended reals is used.
-/
import proofs.«131766_j5781025981003_1_alg».proof.Proof.LibSageDense

noncomputable section

namespace Cert.LibSageDense

open Idealize.ShloMosaic Idealize.ShloMosaic.ValueIdx Cert.LibTileRows Cert.LibPlainDot

variable {M K N : Nat} (d : DotDims ⟨2, ![M, K]⟩ ⟨2, ![K, N]⟩ ⟨2, ![M, N]⟩) (hd : Plain d)
  (hb1 : (⟨1, ![N]⟩ : Shape).BroadcastsInDim ⟨2, ![1, N]⟩ ![1])
  (hb : (⟨2, ![1, N]⟩ : Shape).BroadcastsInDim ⟨2, ![M, N]⟩ ![0, 1])
  (h0 : (⟨0, ![]⟩ : Shape).BroadcastsInDim ⟨2, ![M, N]⟩ ![])
  (h a : FVec Ideal ⟨2, ![M, K]⟩ .f32) (ws wn : FVec Ideal ⟨2, ![K, N]⟩ .f32) (b : FVec Ideal ⟨1, ![N]⟩ .f32)

/-- A vector laid out as the one row of a [1, N] array by a broadcast that sends its axis to axis 1. -/
theorem rowOf_eq_bcast : rowOf b = broadcastInDim ⟨2, ![1, N]⟩ ![1] hb1 b := by
  funext i
  obtain ⟨p, q, rfl⟩ : ∃ (p : Fin 1) (q : Fin N), i = ix2 p q := ⟨i 0, i 1, eq_ix2 i⟩
  rw [broadcastInDim_apply ![1] hb1 b (ix2 p q) (ix1 q) ?_]
  · rfl
  · intro ax
    match ax with
    | ⟨0, _⟩ =>
      show q.val = if N = 1 then 0 else q.val
      split
      · have := q.isLt; omega
      · rfl

/-- The host's dense step: two plain products, summed, plus the bias row broadcast over the rows. -/
def hostLin : FVec Ideal ⟨2, ![M, N]⟩ .f32 :=
  addf (addf (Host.dotGeneral (F := Ideal) d none h ws) (Host.dotGeneral (F := Ideal) d none a wn))
    (broadcastInDim ⟨2, ![M, N]⟩ ![0, 1] hb (broadcastInDim ⟨2, ![1, N]⟩ ![1] hb1 b))

include hd in
theorem lin_eq_hostLin : lin h a ws wn b = hostLin d hb1 hb h a ws wn b := by
  unfold lin hostLin
  rw [rowsBias_eq_add (M := M) (N := N) _ (rowOf b) hb, rowOf_eq_bcast hb1 b]
  refine congrArg (fun z => addf z _) ?_
  funext i
  rw [addf_apply,
    rowsProd_eq_dot d hd.rank hd.size hd.lhs0 hd.lhs1 hd.rhs0 hd.rhs1 h ws,
    rowsProd_eq_dot d hd.rank hd.size hd.lhs0 hd.lhs1 hd.rhs0 hd.rhs1 a wn]

include hd in
/-- The host's dense step followed by its leaky rectifier. -/
theorem linAct_eq_host :
    linAct h a ws wn b
      = select (cmpf .oge (hostLin d hb1 hb h a ws wn b) (broadcastInDim ⟨2, ![M, N]⟩ ![] h0 (constant (F := Ideal) ⟨0, ![]⟩ .f32 0x00000000#32)))
          (hostLin d hb1 hb h a ws wn b)
          (mulf (broadcastInDim ⟨2, ![M, N]⟩ ![] h0 (constant (F := Ideal) ⟨0, ![]⟩ .f32 0x3C23D70A#32)) (hostLin d hb1 hb h a ws wn b)) := by
  funext i
  rw [select_apply, cmpf_apply, mulf_apply,
    broadcastInDim_apply ![] h0 (constant (F := Ideal) ⟨0, ![]⟩ .f32 0x00000000#32) i ix0 (fun ax => ax.elim0),
    broadcastInDim_apply ![] h0 (constant (F := Ideal) ⟨0, ![]⟩ .f32 0x3C23D70A#32) i ix0 (fun ax => ax.elim0),
    ← lin_eq_hostLin d hd hb1 hb h a ws wn b]
  rfl

end Cert.LibSageDense

end
-- ==== Proof.LibEdgeDenseHost.lean ====
/-
  The two dense steps in the host's spelling.

  A contraction over columns laid side by side splits: for P [M, A] beside Q [M, B] and W [A + B, N],
      ∑ a < A + B, (P | Q)(r, a) · W(a, c) = (∑ a < A, P(r, a) · W(a, c)) + (∑ b < B, Q(r, b) · W(A + b, c)),
  a sum over an interval cut in two, which holds in any commutative monoid (the extended reals with their sum are one;
  nothing needs to be finite). With it the whole-array step `dense2Relu` over the top A rows and the bottom B rows of W
  is what a host computes by joining P and Q along the columns, ONE plain matrix product with the whole of W, the bias
  vector laid out as a row and broadcast over the rows, and the maximum with zero. The message step `convRelu` is the
  host's subtraction, plain product, bias, residual sum and maximum with zero, the same operations entry by entry.
-/
import proofs.«131766_j5781025981003_1_alg».proof.Proof.LibEdgeDense
import proofs.«131766_j5781025981003_1_alg».proof.Proof.LibSageDenseHost

noncomputable section

namespace Cert.LibEdgeDense

open Idealize.ShloMosaic Idealize.ShloMosaic.ValueIdx Cert.LibTileRows Cert.LibPlainDot Cert.LibDenseTile
open Cert.LibSageDense (rowOf rowOf_eq_bcast)

/-- A contraction over joined columns is the sum of the contractions over each part, the second against the rows of W
    past the first part's width. `Wt` and `Wb` are any arrays that hold the top A and the next B rows of W. -/
theorem rowsProd_joinCols {M A B C N : Nat} (hC : C = A + B)
    (P : (⟨2, ![M, A]⟩ : Shape).Idx → EReal) (Q : (⟨2, ![M, B]⟩ : Shape).Idx → EReal)
    (W : (⟨2, ![C, N]⟩ : Shape).Idx → EReal) (Wt : (⟨2, ![A, N]⟩ : Shape).Idx → EReal) (Wb : (⟨2, ![B, N]⟩ : Shape).Idx → EReal)
    (ht : ∀ (a : Fin A) (c : Fin N) (k : (⟨2, ![C, N]⟩ : Shape).Idx), (k 0).val = a.val → (k 1).val = c.val → Wt (ix2 a c) = W k)
    (hb : ∀ (b : Fin B) (c : Fin N) (k : (⟨2, ![C, N]⟩ : Shape).Idx), (k 0).val = A + b.val → (k 1).val = c.val → Wb (ix2 b c) = W k)
    (i : (⟨2, ![M, N]⟩ : Shape).Idx) :
    rowsProd (joinCols (C := C) P Q) W i = rowsProd P Wt i + rowsProd Q Wb i := by
  subst hC
  unfold rowsProd
  rw [Fin.sum_univ_add]
  refine congrArg₂ (· + ·) (Finset.sum_congr rfl fun a _ => ?_) (Finset.sum_congr rfl fun b _ => ?_)
  · rw [ht a (i 1) (ix2 (Fin.castAdd B a) (i 1)) rfl rfl]
    refine congrArg (· * _) ?_
    unfold joinCols
    rw [dif_pos (show ((ix2 (i 0) (Fin.castAdd B a) : (⟨2, ![M, A + B]⟩ : Shape).Idx) 1).val < A from a.isLt)]
    rfl
  · rw [hb b (i 1) (ix2 (Fin.natAdd A b) (i 1)) rfl rfl]
    refine congrArg (· * _) ?_
    unfold joinCols
    have h1 : ¬ ((ix2 (i 0) (Fin.natAdd A b) : (⟨2, ![M, A + B]⟩ : Shape).Idx) 1).val < A := by
      show ¬ A + b.val < A
      omega
    have h2 : ((ix2 (i 0) (Fin.natAdd A b) : (⟨2, ![M, A + B]⟩ : Shape).Idx) 1).val - A < B := by
      show A + b.val - A < B
      have := b.isLt
      omega
    rw [dif_neg h1, dif_pos h2]
    exact congrArg Q (congrArg (fun z => ix2 (i 0) z) (Fin.ext (show A + b.val - A = b.val by omega)))

section Host

variable {M A B C N : Nat} (hC : C = A + B)
  (d : DotDims ⟨2, ![M, C]⟩ ⟨2, ![C, N]⟩ ⟨2, ![M, N]⟩) (hd : Plain d)
  (hc : Shape.Concatenates [⟨2, ![M, A]⟩, ⟨2, ![M, B]⟩] ⟨2, ![M, C]⟩ 1)
  (hb1 : (⟨1, ![N]⟩ : Shape).BroadcastsInDim ⟨2, ![1, N]⟩ ![1])
  (hb : (⟨2, ![1, N]⟩ : Shape).BroadcastsInDim ⟨2, ![M, N]⟩ ![0, 1])
  (h0 : (⟨0, ![]⟩ : Shape).BroadcastsInDim ⟨2, ![M, N]⟩ ![])
  (P : FVec Ideal ⟨2, ![M, A]⟩ .f32) (Q : FVec Ideal ⟨2, ![M, B]⟩ .f32) (W : FVec Ideal ⟨2, ![C, N]⟩ .f32)
  (Wt : (⟨2, ![A, N]⟩ : Shape).Idx → EReal) (Wb : (⟨2, ![B, N]⟩ : Shape).Idx → EReal) (bias : FVec Ideal ⟨1, ![N]⟩ .f32)

include hC in
/-- Two arrays joined along the columns by the host's concatenation. -/
theorem concat_eq_joinCols :
    concatenate ⟨2, ![M, C]⟩ 1 [⟨⟨2, ![M, A]⟩, P⟩, ⟨⟨2, ![M, B]⟩, Q⟩] hc = joinCols (C := C) P Q :=
  funext fun y => tile_joinCols P Q hc hC P Q 0
    (fun x k e0 e1 => congrArg P (funext fun a => Fin.ext (by
      match a with
      | ⟨0, _⟩ => exact (by omega : (x 0).val = (k 0).val)
      | ⟨1, _⟩ => exact e1.symm)))
    (fun x k e0 e1 => congrArg Q (funext fun a => Fin.ext (by
      match a with
      | ⟨0, _⟩ => exact (by omega : (x 0).val = (k 0).val)
      | ⟨1, _⟩ => exact e1.symm)))
    y y (by omega) rfl

include hC hd in
/-- The whole-array step over the top and bottom rows of W is the host's: join, one product, bias row, maximum with
    zero. -/
theorem dense2Relu_eq_host
    (ht : ∀ (a : Fin A) (c : Fin N) (k : (⟨2, ![C, N]⟩ : Shape).Idx), (k 0).val = a.val → (k 1).val = c.val → Wt (ix2 a c) = W k)
    (hbm : ∀ (b : Fin B) (c : Fin N) (k : (⟨2, ![C, N]⟩ : Shape).Idx), (k 0).val = A + b.val → (k 1).val = c.val → Wb (ix2 b c) = W k) :
    dense2Relu P Q Wt Wb (rowOf bias)
      = maximumf (addf (Host.dotGeneral (F := Ideal) d none (concatenate ⟨2, ![M, C]⟩ 1 [⟨⟨2, ![M, A]⟩, P⟩, ⟨⟨2, ![M, B]⟩, Q⟩] hc) W)
          (broadcastInDim ⟨2, ![M, N]⟩ ![0, 1] hb (broadcastInDim ⟨2, ![1, N]⟩ ![1] hb1 bias)))
        (broadcastInDim ⟨2, ![M, N]⟩ ![] h0 (constant (F := Ideal) ⟨0, ![]⟩ .f32 0x00000000#32)) := by
  have hprod : (fun i => rowsProd P Wt i + rowsProd Q Wb i)
      = Host.dotGeneral (F := Ideal) d none (concatenate ⟨2, ![M, C]⟩ 1 [⟨⟨2, ![M, A]⟩, P⟩, ⟨⟨2, ![M, B]⟩, Q⟩] hc) W := by
    rw [concat_eq_joinCols hC hc P Q, ← rowsProd_eq_dot d hd.rank hd.size hd.lhs0 hd.lhs1 hd.rhs0 hd.rhs1]
    funext i
    exact (rowsProd_joinCols hC P Q W Wt Wb ht hbm i).symm
  unfold dense2Relu
  rw [hprod, rowOf_eq_bcast hb1 bias]
  exact rowsBiasRelu_eq_max _ _ hb h0

end Host

/-- The message step is the host's: subtract, one plain product, bias row, residual, maximum with zero. -/
theorem convRelu_eq_host {M K N : Nat} (d : DotDims ⟨2, ![M, K]⟩ ⟨2, ![K, N]⟩ ⟨2, ![M, N]⟩) (hd : Plain d)
    (hb1 : (⟨1, ![N]⟩ : Shape).BroadcastsInDim ⟨2, ![1, N]⟩ ![1])
    (hb : (⟨2, ![1, N]⟩ : Shape).BroadcastsInDim ⟨2, ![M, N]⟩ ![0, 1])
    (h0 : (⟨0, ![]⟩ : Shape).BroadcastsInDim ⟨2, ![M, N]⟩ ![])
    (A R : FVec Ideal ⟨2, ![M, K]⟩ .f32) (W : FVec Ideal ⟨2, ![K, N]⟩ .f32) (bias : FVec Ideal ⟨1, ![N]⟩ .f32)
    (H : FVec Ideal ⟨2, ![M, N]⟩ .f32) :
    convRelu A R W (rowOf bias) H
      = maximumf (addf (addf (Host.dotGeneral (F := Ideal) d none (subf A R) W)
            (broadcastInDim ⟨2, ![M, N]⟩ ![0, 1] hb (broadcastInDim ⟨2, ![1, N]⟩ ![1] hb1 bias))) H)
        (broadcastInDim ⟨2, ![M, N]⟩ ![] h0 (constant (F := Ideal) ⟨0, ![]⟩ .f32 0x00000000#32)) := by
  have e : rowsBias (rowsProd (subf A R) W) (rowOf bias)
      = addf (Host.dotGeneral (F := Ideal) d none (subf A R) W)
          (broadcastInDim ⟨2, ![M, N]⟩ ![0, 1] hb (broadcastInDim ⟨2, ![1, N]⟩ ![1] hb1 bias)) := by
    rw [rowsBias_eq_add (M := M) (N := N) _ (rowOf bias) hb, rowOf_eq_bcast hb1 bias,
      rowsProd_eq_dot d hd.rank hd.size hd.lhs0 hd.lhs1 hd.rhs0 hd.rhs1 (subf A R) W]
  funext i
  unfold convRelu
  rw [maximumf_apply, addf_apply, ← e,
    broadcastInDim_apply ![] h0 (constant (F := Ideal) ⟨0, ![]⟩ .f32 0x00000000#32) i ix0 (fun a => a.elim0)]
  rfl

/-- A vector reshaped to one row is `rowOf` of it. -/
theorem shapeCast_row_eq_rowOf {N : Nat} (b : FVec Ideal ⟨1, ![N]⟩ .f32) (h : (⟨1, ![N]⟩ : Shape).ShapeCasts ⟨2, ![1, N]⟩) :
    shapeCast ⟨2, ![1, N]⟩ b h = rowOf b := by
  funext x
  obtain ⟨p, q, rfl⟩ : ∃ (p : Fin 1) (q : Fin N), x = ix2 p q := ⟨x 0, x 1, eq_ix2 x⟩
  rw [shapeCast_a_1a_apply b h p q]
  rfl

end Cert.LibEdgeDense

end
-- ==== Proof.Bridge.lean ====
/-
  The kernel's three dense steps are the reference's stages.

  On the extended reals, as functions of whole arrays:
  * the edge initialisation — the gathered node features times the top 32 rows of the weight plus the edge features
    times its bottom 16 rows, the bias row, the maximum with zero — is the reference's: the two feature arrays joined
    along the columns, ONE product with the whole 48-row weight, the bias, the maximum with zero (a contraction over
    joined columns is the sum of the contractions over each part);
  * a message step — (A − R) times the layer's weight, the bias row, the initial state added, the maximum with zero — is
    the reference's, operation by operation;
  * the node update is the edge initialisation's law again with 32 + 128 = 160 joined columns.
  The bias reaches the kernels reshaped to one row and the reference as a broadcast to one row: the same row.
-/
import proofs.«131766_j5781025981003_1_alg».proof.Proof.LibEdgeDenseHost
import proofs.«131766_j5781025981003_1_alg».proof.Proof.Gen.KernelIdeal
import proofs.«131766_j5781025981003_1_alg».proof.Proof.Gen.ReferenceIdeal.Read

set_option maxRecDepth 16384

noncomputable section

namespace Cert.Bridge

open Idealize.ShloMosaic Idealize.ShloMosaic.ValueIdx
open Cert.KernelIdeal Cert.KernelIdeal.Gen Cert.LibEdgeDense Cert.LibPlainDot Cert.ReferenceIdeal.Read

theorem plain48 : Plain Cert.ReferenceIdeal.dot_S500000x48_S48x128_S500000x128_1_0_0_1_n_n := ⟨rfl, rfl, rfl, rfl, rfl, rfl⟩
theorem plain160 : Plain Cert.ReferenceIdeal.dot_S50000x160_S160x128_S50000x128_1_0_0_1_n_n := ⟨rfl, rfl, rfl, rfl, rfl, rfl⟩
theorem plain128 : Plain Cert.ReferenceIdeal.dot_S500000x128_S128x128_S500000x128_1_0_0_1_n_n := ⟨rfl, rfl, rfl, rfl, rfl, rfl⟩

/-- Equal operands, equal step. -/
theorem dense2Relu_congr {M K1 K2 N : Nat} {X1 X1' : (⟨2, ![M, K1]⟩ : Shape).Idx → EReal} {X2 X2' : (⟨2, ![M, K2]⟩ : Shape).Idx → EReal}
    {W1 W1' : (⟨2, ![K1, N]⟩ : Shape).Idx → EReal} {W2 W2' : (⟨2, ![K2, N]⟩ : Shape).Idx → EReal}
    {B B' : (⟨2, ![1, N]⟩ : Shape).Idx → EReal} (e1 : X1 = X1') (e2 : X2 = X2') (e3 : W1 = W1') (e4 : W2 = W2') (e5 : B = B') :
    dense2Relu X1 X2 W1 W2 B = dense2Relu X1' X2' W1' W2' B' := by
  subst e1 e2 e3 e4 e5; rfl

/-- Equal operands, equal step. -/
theorem convRelu_congr {M K N : Nat} {A A' R R' : FVec Ideal ⟨2, ![M, K]⟩ .f32} {W W' : (⟨2, ![K, N]⟩ : Shape).Idx → EReal}
    {B B' : (⟨2, ![1, N]⟩ : Shape).Idx → EReal} {H H' : (⟨2, ![M, N]⟩ : Shape).Idx → EReal}
    (e1 : A = A') (e2 : R = R') (e3 : W = W') (e4 : B = B') (e5 : H = H') :
    convRelu A R W B H = convRelu A' R' W' B' H' := by
  subst e1 e2 e3 e4 e5; rfl

/-- The top rows of a weight cut out by a slice at row offset zero. -/
theorem slice_top {C A N : Nat} (W : (⟨2, ![C, N]⟩ : Shape).Idx → EReal) (h : (⟨2, ![C, N]⟩ : Shape).Slices ![0, 0] ⟨2, ![A, N]⟩)
    (a : Fin A) (c : Fin N) (k : (⟨2, ![C, N]⟩ : Shape).Idx) (e0 : (k 0).val = a.val) (e1 : (k 1).val = c.val) :
    extractStridedSlice ⟨2, ![A, N]⟩ ![0, 0] W h (ix2 a c) = W k :=
  extractStridedSlice_apply ![0, 0] W h (ix2 a c) k (fun ax => by
    match ax with
    | ⟨0, _⟩ => show (k 0).val = 0 + a.val; omega
    | ⟨1, _⟩ => show (k 1).val = 0 + c.val; omega)

/-- The rows of a weight from row `o` on cut out by a slice at row offset `o`. -/
theorem slice_bot {C B N : Nat} (o : Nat) (W : (⟨2, ![C, N]⟩ : Shape).Idx → EReal) (h : (⟨2, ![C, N]⟩ : Shape).Slices ![o, 0] ⟨2, ![B, N]⟩)
    (b : Fin B) (c : Fin N) (k : (⟨2, ![C, N]⟩ : Shape).Idx) (e0 : (k 0).val = o + b.val) (e1 : (k 1).val = c.val) :
    extractStridedSlice ⟨2, ![B, N]⟩ ![o, 0] W h (ix2 b c) = W k :=
  extractStridedSlice_apply ![o, 0] W h (ix2 b c) k (fun ax => by
    match ax with
    | ⟨0, _⟩ => show (k 0).val = o + b.val; omega
    | ⟨1, _⟩ => show (k 1).val = 0 + c.val; omega)

/-- The edge initialisation over the two slices of the weight is the reference's stage. -/
theorem edgeInit_eq (x0 : FVec Ideal S50000x32 .f32) (x1 : FVec Ideal S500000x16 .f32) (x2 : IVec S2x500000 32)
    (x4 : FVec Ideal S48x128 .f32) (x5 : FVec Ideal S128 .f32) :
    dense2Relu (val_main_v10 (F := Ideal) x0 x2) x1 (extractStridedSlice S32x128 ![0, 0] x4 slices_S48x128_S32x128_0_0)
        (extractStridedSlice S16x128 ![32, 0] x4 slices_S48x128_S16x128_32_0) (shapeCast S1x128 x5 shapeCasts_S128_S1x128)
      = val_main_v16 (F := Ideal) x0 x1 x2 x4 x5 := by
  unfold val_main_v16 val_main_v15 val_main_v12 val_main_v11 val_main_v14 val_main_v13 val_main_call0_v0 val_main_call0_cst
  generalize val_main_v10 (F := Ideal) x0 x2 = xg
  rw [shapeCast_row_eq_rowOf x5 shapeCasts_S128_S1x128]
  exact dense2Relu_eq_host (A := 32) (B := 16) (C := 48) rfl Cert.ReferenceIdeal.dot_S500000x48_S48x128_S500000x128_1_0_0_1_n_n plain48
    Cert.ReferenceIdeal.Gen.concatenates_S500000x32_S500000x16_S500000x48_d1 Cert.ReferenceIdeal.Gen.bcast_S128_S1x128_1 Cert.ReferenceIdeal.Gen.bcast_S1x128_S500000x128_0_1
    Cert.ReferenceIdeal.Gen.bcast_S_S500000x128 xg x1 x4 _ _ x5
    (fun a c k e0 e1 => slice_top x4 slices_S48x128_S32x128_0_0 a c k e0 e1)
    (fun b c k e0 e1 => slice_bot 32 x4 slices_S48x128_S16x128_32_0 b c k e0 e1)

/-- The node update over the two slices of the weight is the reference's operations on the node features and any
    aggregate `s`. -/
theorem nodeUpdate_eq (x0 : FVec Ideal S50000x32 .f32) (s : FVec Ideal S50000x128 .f32) (x8 : FVec Ideal S160x128 .f32)
    (x9 : FVec Ideal S128 .f32) :
    dense2Relu x0 s (extractStridedSlice S32x128 ![0, 0] x8 slices_S160x128_S32x128_0_0)
        (extractStridedSlice S128x128 ![32, 0] x8 slices_S160x128_S128x128_32_0) (shapeCast S1x128 x9 shapeCasts_S128_S1x128)
      = maximumf (addf (Host.dotGeneral (F := Ideal) Cert.ReferenceIdeal.dot_S50000x160_S160x128_S50000x128_1_0_0_1_n_n none
            (concatenate Cert.ReferenceIdeal.S50000x160 1 [⟨Cert.ReferenceIdeal.S50000x32, x0⟩, ⟨Cert.ReferenceIdeal.S50000x128, s⟩] Cert.ReferenceIdeal.Gen.concatenates_S50000x32_S50000x128_S50000x160_d1) x8)
          (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 x9)))
        (broadcastInDim Cert.ReferenceIdeal.S50000x128 ![] Cert.ReferenceIdeal.Gen.bcast_S_S50000x128 (constant (F := Ideal) Cert.ReferenceIdeal.S_ .f32 0x00000000#32)) := by
  rw [shapeCast_row_eq_rowOf x9 shapeCasts_S128_S1x128]
  exact dense2Relu_eq_host (A := 32) (B := 128) (C := 160) rfl Cert.ReferenceIdeal.dot_S50000x160_S160x128_S50000x128_1_0_0_1_n_n plain160
    Cert.ReferenceIdeal.Gen.concatenates_S50000x32_S50000x128_S50000x160_d1 Cert.ReferenceIdeal.Gen.bcast_S128_S1x128_1 Cert.ReferenceIdeal.Gen.bcast_S1x128_S50000x128_0_1
    Cert.ReferenceIdeal.Gen.bcast_S_S50000x128 x0 s x8 _ _ x9
    (fun a c k e0 e1 => slice_top x8 slices_S160x128_S32x128_0_0 a c k e0 e1)
    (fun b c k e0 e1 => slice_bot 32 x8 slices_S160x128_S128x128_32_0 b c k e0 e1)

/-- A message step with the bias reshaped to one row is the reference's operations on the same operands. -/
theorem conv_eq (A R : FVec Ideal S500000x128 .f32) (W : FVec Ideal S128x128 .f32) (bvec : FVec Ideal S128 .f32)
    (H : FVec Ideal S500000x128 .f32) :
    convRelu A R W (shapeCast S1x128 bvec shapeCasts_S128_S1x128) H
      = maximumf (addf (addf (Host.dotGeneral (F := Ideal) Cert.ReferenceIdeal.dot_S500000x128_S128x128_S500000x128_1_0_0_1_n_n none (subf A R) W)
            (broadcastInDim Cert.ReferenceIdeal.S500000x128 ![0, 1] Cert.ReferenceIdeal.Gen.bcast_S1x128_S500000x128_0_1 (broadcastInDim Cert.ReferenceIdeal.S1x128 ![1] Cert.ReferenceIdeal.Gen.bcast_S128_S1x128_1 bvec))) H)
        (broadcastInDim Cert.ReferenceIdeal.S500000x128 ![] Cert.ReferenceIdeal.Gen.bcast_S_S500000x128 (constant (F := Ideal) Cert.ReferenceIdeal.S_ .f32 0x00000000#32)) := by
  rw [shapeCast_row_eq_rowOf bvec shapeCasts_S128_S1x128]
  exact convRelu_eq_host Cert.ReferenceIdeal.dot_S500000x128_S128x128_S500000x128_1_0_0_1_n_n plain128 Cert.ReferenceIdeal.Gen.bcast_S128_S1x128_1
    Cert.ReferenceIdeal.Gen.bcast_S1x128_S500000x128_0_1 Cert.ReferenceIdeal.Gen.bcast_S_S500000x128 A R W bvec H

end Cert.Bridge

end
-- ==== Proof.RegionEdgeInit.lean ====
/-
  The edge-initialisation region, read as a value.

  The region walks the 500000 edges in 100 tiles of 5000 rows. At tile t the body multiplies the tile's rows of the
  gathered node features [5000, 32] by the top weight block [32, 128] and the tile's rows of the edge features
  [5000, 16] by the bottom weight block [16, 128], both into zero accumulators, adds the two products and the bias row,
  and takes the maximum with zero. Row r of the result depends on row r of the two row operands only, so what tile t
  writes back is rows 5000 t, …, 5000 t + 4999 of ONE whole-array function of the arrays the region finds; the 100
  tiles cover every row, so the output array ends holding that function.
-/
import proofs.«131766_j5781025981003_1_alg».proof.Proof.Gen.KernelIdeal.Frame
import proofs.«131766_j5781025981003_1_alg».proof.Proof.LibEdgeDense
import Idealize.ShloMosaic.Lib.Pipeline.Value
import Idealize.ShloMosaic.Lib.ValueIdx

set_option maxRecDepth 16384

noncomputable section

namespace Cert.KernelIdeal.EdgeInit

open Cert.KernelIdeal Cert.KernelIdeal.Gen
open Idealize.ShloMosaic Idealize.ShloMosaic.TcCoe Idealize.ShloMosaic.ValueIdx Idealize.SL.Sem
open Idealize.ShloMosaic.Pipeline (Dat)
open Cert.LibEdgeDense Cert.LibPlainDot

variable (V : (c : Dev nD) → (b : Ref sig .tc) → Buf (Elt Ideal) ((c : Thread nD τ).loc b))

theorem hz : (![0, 0] : Fin 2 → Nat) = fun _ => 0 := funext fun a => by fin_cases a <;> rfl

theorem plainL : Plain dot_S5000x32_S32x128_S5000x128_1_0_0_1_n_n := ⟨rfl, rfl, rfl, rfl, rfl, rfl⟩
theorem plainR : Plain dot_S5000x16_S16x128_S5000x128_1_0_0_1_n_n := ⟨rfl, rfl, rfl, rfl, rfl, rfl⟩

/-- The body's one stored value at row p, column c of the tile is the whole-array step at row o + p, column c, when the
    tile's two row operands hold rows o, o + 1, … of X1 and X2 and the weights and the bias row are whole. -/
theorem pay_eq (x0 : Vec Ideal S5000x32 .f32) (x1 : Vec Ideal S5000x16 .f32) (x2 : Vec Ideal S32x128 .f32)
    (x3 : Vec Ideal S16x128 .f32) (x4 : Vec Ideal S1x128 .f32)
    (X1 : S500000x32.Idx → EReal) (X2 : S500000x16.Idx → EReal) (W1 : S32x128.Idx → EReal) (W2 : S16x128.Idx → EReal)
    (B : S1x128.Idx → EReal) (o : Nat)
    (h0 : ∀ (x : S5000x32.Idx) (k : S500000x32.Idx), (k 0).val = o + (x 0).val → (k 1).val = (x 1).val → x0 x = X1 k)
    (h1 : ∀ (x : S5000x16.Idx) (k : S500000x16.Idx), (k 0).val = o + (x 0).val → (k 1).val = (x 1).val → x1 x = X2 k)
    (h2 : ∀ x, x2 x = W1 x) (h3 : ∀ x, x3 x = W2 x) (h4 : ∀ x, x4 x = B x)
    (y : S5000x128.Idx) (i : S500000x128.Idx) (hi0 : (i 0).val = o + (y 0).val) (hi1 : (i 1).val = (y 1).val) :
    k0_pay1 x0 x1 x2 x3 x4 y = dense2Relu X1 X2 W1 W2 B i := by
  unfold k0_pay1
  exact tile_dense2Relu dot_S5000x32_S32x128_S5000x128_1_0_0_1_n_n plainL dot_S5000x16_S16x128_S5000x128_1_0_0_1_n_n plainR
    (truncf .bf16 (shapeCast S5000x32 x0 shapeCasts_S5000x32_S5000x32) bitsLt_bf16_f32) (truncf .bf16 (shapeCast S32x128 x2 shapeCasts_S32x128_S32x128) bitsLt_bf16_f32)
    (truncf .bf16 x1 bitsLt_bf16_f32) (truncf .bf16 (shapeCast S16x128 x3 shapeCasts_S16x128_S16x128) bitsLt_bf16_f32)
    (shapeCast S1x128 x4 shapeCasts_S1x128_S1x128) broadcasts_S1x128_S5000x128 X1 X2 W1 W2 B o
    (fun x k e0 e1 => (congrFun (shapeCast_self x0 shapeCasts_S5000x32_S5000x32) x).trans (h0 x k e0 e1))
    (fun x k e0 e1 => h1 x k e0 e1)
    (fun x => (congrFun (shapeCast_self x2 shapeCasts_S32x128_S32x128) x).trans (h2 x))
    (fun x => (congrFun (shapeCast_self x3 shapeCasts_S16x128_S16x128) x).trans (h3 x))
    (fun x => (congrFun (shapeCast_self x4 shapeCasts_S1x128_S1x128) x).trans (h4 x))
    y i hi0 hi1

/-- The region's output array as one function of the arrays the region finds. -/
abbrev whole (c : Dev nD) : S500000x128.Idx → EReal :=
  dense2Relu (V c main_v10 : S500000x32.Idx → EReal) (V c main_arg1 : S500000x16.Idx → EReal) (V c main_v11 : S32x128.Idx → EReal)
    (V c main_v12 : S16x128.Idx → EReal) (V c main_v13 : S1x128.Idx → EReal)

/-- The printed index maps, decided over the grid: the row-tiled windows sit at block row t, the whole-array windows at
    block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the whole-array function. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x32) hz, View.ld_unit_zero (S := S5000x16) hz, View.ld_unit_zero (S := S32x128) hz,
    View.ld_unit_zero (S := S16x128) hz, View.ld_unit_zero (S := S1x128) hz]
  obtain ⟨e00, e01, e10, e11, e20, e21, e30, e31, e40, e41, e50, e51⟩ := idx_facts t
  funext j
  show k0_pay1 (iblk0 V c 0 t) (iblk0 V c 1 t) (iblk0 V c 2 t) (iblk0 V c 3 t) (iblk0 V c 4 t) j
    = whole V c (((cfg0.win 5).blk t).view.emb j)
  refine pay_eq (iblk0 V c 0 t) (iblk0 V c 1 t) (iblk0 V c 2 t) (iblk0 V c 3 t) (iblk0 V c 4 t)
    (V c main_v10) (V c main_arg1) (V c main_v11) (V c main_v12) (V c main_v13) (t.val * 5000) ?_ ?_ ?_ ?_ ?_ j
    (((cfg0.win 5).blk t).view.emb j) ?_ ?_
  · intro x k h0 h1
    show V c main_v10 (((cfg0.win 0).blk t).view.emb x) = V c main_v10 k
    refine congrArg _ (funext fun a => Fin.ext ?_)
    match a with
    | ⟨0, _⟩ => show win0_0.index t (0 : Fin 2) * 5000 + 1 * (x 0).val = (k 0).val; omega
    | ⟨1, _⟩ => show win0_0.index t (1 : Fin 2) * 32 + 1 * (x 1).val = (k 1).val; omega
  · intro x k h0 h1
    show V c main_arg1 (((cfg0.win 1).blk t).view.emb x) = V c main_arg1 k
    refine congrArg _ (funext fun a => Fin.ext ?_)
    match a with
    | ⟨0, _⟩ => show win0_1.index t (0 : Fin 2) * 5000 + 1 * (x 0).val = (k 0).val; omega
    | ⟨1, _⟩ => show win0_1.index t (1 : Fin 2) * 16 + 1 * (x 1).val = (k 1).val; omega
  · intro x
    show V c main_v11 (((cfg0.win 2).blk t).view.emb x) = V c main_v11 x
    refine congrArg _ (funext fun a => Fin.ext ?_)
    match a with
    | ⟨0, _⟩ => show win0_2.index t (0 : Fin 2) * 32 + 1 * (x 0).val = (x 0).val; omega
    | ⟨1, _⟩ => show win0_2.index t (1 : Fin 2) * 128 + 1 * (x 1).val = (x 1).val; omega
  · intro x
    show V c main_v12 (((cfg0.win 3).blk t).view.emb x) = V c main_v12 x
    refine congrArg _ (funext fun a => Fin.ext ?_)
    match a with
    | ⟨0, _⟩ => show win0_3.index t (0 : Fin 2) * 16 + 1 * (x 0).val = (x 0).val; omega
    | ⟨1, _⟩ => show win0_3.index t (1 : Fin 2) * 128 + 1 * (x 1).val = (x 1).val; omega
  · intro x
    show V c main_v13 (((cfg0.win 4).blk t).view.emb x) = V c main_v13 x
    refine congrArg _ (funext fun a => Fin.ext ?_)
    match a with
    | ⟨0, _⟩ => show win0_4.index t (0 : Fin 2) * 1 + 1 * (x 0).val = (x 0).val; omega
    | ⟨1, _⟩ => show win0_4.index t (1 : Fin 2) * 128 + 1 * (x 1).val = (x 1).val; omega
  · show win0_5.index t (0 : Fin 2) * 5000 + 1 * (j 0).val = t.val * 5000 + (j 0).val; omega
  · show win0_5.index t (1 : Fin 2) * 128 + 1 * (j 1).val = (j 1).val; omega

/-- An index of the output array is in point t's block iff each coordinate is in the block's range on its axis. -/
theorem mem_blk (t : Fin cfg0.N) (i : S500000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v14).slice (win0_5.rect t)).set ↔ _
  rw [View.set_slice_whole, Rect.mem_set_unit]
  exact Iff.rfl

/-- Every index of the output array is in the block of the point its row falls in. -/
theorem cover (i : S500000x128.Idx) : ∃ t : Fin cfg0.N, (cfg0.win 5).flush t = true ∧ i ∈ ((cfg0.win 5).blk t).view.set := by
  have hi0 : (i 0).val < 500000 := (i 0).isLt
  have hi1 : (i 1).val < 128 := (i 1).isLt
  have ht : (i 0).val / 5000 < cfg0.N := by show (i 0).val / 5000 < 100; omega
  obtain ⟨e00, e01, e10, e11, e20, e21, e30, e31, e40, e41, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]
    omega

/-- The output array after the region is the whole-array function of the arrays the region finds. -/
theorem final (c : Dev nD) : (dat0 V c).arrAt 5 cfg0.N = whole V c :=
  (dat0 V c).arrAt_eq_of_cover 5 (whole V c) (fun t _ => flushed_eq V c t) cover

end Cert.KernelIdeal.EdgeInit

end
-- ==== Proof.RegionConvA.lean ====
/-
  The first message-passing region, read as a value.

  The region walks the 500000 edges in 100 tiles of 5000 rows. At tile t the body subtracts the tile's rows of the
  reversed messages from the tile's rows of the gathered aggregate, multiplies the difference [5000, 128] by the layer's
  weight [128, 128] into a zero accumulator, adds the bias row and the tile's rows of the initial edge state, and takes
  the maximum with zero. Row r of the result depends on row r of the three row operands only, so what tile t writes
  back is rows 5000 t, …, 5000 t + 4999 of ONE whole-array function of the arrays the region finds; the 100 tiles cover
  every row, so the output array ends holding that function.
-/
import proofs.«131766_j5781025981003_1_alg».proof.Proof.Gen.KernelIdeal.Frame
import proofs.«131766_j5781025981003_1_alg».proof.Proof.LibEdgeDense
import Idealize.ShloMosaic.Lib.Pipeline.Value
import Idealize.ShloMosaic.Lib.ValueIdx

set_option maxRecDepth 16384

noncomputable section

namespace Cert.KernelIdeal.ConvA

open Cert.KernelIdeal Cert.KernelIdeal.Gen
open Idealize.ShloMosaic Idealize.ShloMosaic.TcCoe Idealize.ShloMosaic.ValueIdx Idealize.SL.Sem
open Idealize.ShloMosaic.Pipeline (Dat)
open Cert.LibEdgeDense Cert.LibPlainDot

variable (V : (c : Dev nD) → (b : Ref sig .tc) → Buf (Elt Ideal) ((c : Thread nD τ).loc b))

theorem hz : (![0, 0] : Fin 2 → Nat) = fun _ => 0 := funext fun a => by fin_cases a <;> rfl

theorem plainD : Plain dot_S5000x128_S128x128_S5000x128_1_0_0_1_n_n := ⟨rfl, rfl, rfl, rfl, rfl, rfl⟩

/-- The body's one stored value at row p, column c of the tile is the whole-array message step at row o + p, column c,
    when the tile's row operands hold rows o, o + 1, … of A, R and H and the weight and the bias row are whole. -/
theorem pay_eq (x0 x1 : Vec Ideal S5000x128 .f32) (x2 : Vec Ideal S128x128 .f32) (x3 : Vec Ideal S1x128 .f32)
    (x4 : Vec Ideal S5000x128 .f32)
    (A R : FVec Ideal S500000x128 .f32) (W : S128x128.Idx → EReal) (B : S1x128.Idx → EReal) (H : S500000x128.Idx → EReal) (o : Nat)
    (h0 : ∀ (x : S5000x128.Idx) (k : S500000x128.Idx), (k 0).val = o + (x 0).val → (k 1).val = (x 1).val → x0 x = A k)
    (h1 : ∀ (x : S5000x128.Idx) (k : S500000x128.Idx), (k 0).val = o + (x 0).val → (k 1).val = (x 1).val → x1 x = R k)
    (h2 : ∀ x, x2 x = W x) (h3 : ∀ x, x3 x = B x)
    (h4 : ∀ (x : S5000x128.Idx) (k : S500000x128.Idx), (k 0).val = o + (x 0).val → (k 1).val = (x 1).val → x4 x = H k)
    (y : S5000x128.Idx) (i : S500000x128.Idx) (hi0 : (i 0).val = o + (y 0).val) (hi1 : (i 1).val = (y 1).val) :
    k1_pay1 x0 x1 x2 x3 x4 y = convRelu A R W B H i := by
  unfold k1_pay1
  exact tile_convRelu dot_S5000x128_S128x128_S5000x128_1_0_0_1_n_n plainD
    (truncf .bf16 (subf (shapeCast S5000x128 x0 shapeCasts_S5000x128_S5000x128) (shapeCast S5000x128 x1 shapeCasts_S5000x128_S5000x128)) bitsLt_bf16_f32) (truncf .bf16 (shapeCast S128x128 x2 shapeCasts_S128x128_S128x128) bitsLt_bf16_f32)
    (shapeCast S1x128 x3 shapeCasts_S1x128_S1x128) broadcasts_S1x128_S5000x128 (shapeCast S5000x128 x4 shapeCasts_S5000x128_S5000x128) A R W B H o
    (fun x k e0 e1 => congrArg₂ (· - ·)
      ((congrFun (shapeCast_self x0 shapeCasts_S5000x128_S5000x128) x).trans (h0 x k e0 e1))
      ((congrFun (shapeCast_self x1 shapeCasts_S5000x128_S5000x128) x).trans (h1 x k e0 e1)))
    (fun x => (congrFun (shapeCast_self x2 shapeCasts_S128x128_S128x128) x).trans (h2 x))
    (fun x => (congrFun (shapeCast_self x3 shapeCasts_S1x128_S1x128) x).trans (h3 x))
    (fun x k e0 e1 => (congrFun (shapeCast_self x4 shapeCasts_S5000x128_S5000x128) x).trans (h4 x k e0 e1))
    y i hi0 hi1

/-- The region's output array as one function of the arrays the region finds. -/
abbrev whole (c : Dev nD) : S500000x128.Idx → EReal :=
  convRelu (V c main_v24 : S500000x128.Idx → EReal) (V c main_v27 : S500000x128.Idx → EReal) (V c main_v29 : S128x128.Idx → EReal)
    (V c main_v32 : S1x128.Idx → EReal) (V c main_v14 : S500000x128.Idx → EReal)

/-- The printed index maps, decided over the grid: the row-tiled windows sit at block row t, the whole-array windows at
    block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the whole-array function. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k1_pay1 (iblk1 V c 0 t) (iblk1 V c 1 t) (iblk1 V c 3 t) (iblk1 V c 4 t) (iblk1 V c 2 t) j
    = whole V c (((cfg1.win 5).blk t).view.emb j)
  refine pay_eq (iblk1 V c 0 t) (iblk1 V c 1 t) (iblk1 V c 3 t) (iblk1 V c 4 t) (iblk1 V c 2 t)
    (V c main_v24) (V c main_v27) (V c main_v29) (V c main_v32) (V c main_v14) (t.val * 5000) ?_ ?_ ?_ ?_ ?_ j
    (((cfg1.win 5).blk t).view.emb j) ?_ ?_
  · intro x k h0 h1
    show V c main_v24 (((cfg1.win 0).blk t).view.emb x) = V c main_v24 k
    refine congrArg _ (funext fun a => Fin.ext ?_)
    match a with
    | ⟨0, _⟩ => show win1_0.index t (0 : Fin 2) * 5000 + 1 * (x 0).val = (k 0).val; omega
    | ⟨1, _⟩ => show win1_0.index t (1 : Fin 2) * 128 + 1 * (x 1).val = (k 1).val; omega
  · intro x k h0 h1
    show V c main_v27 (((cfg1.win 1).blk t).view.emb x) = V c main_v27 k
    refine congrArg _ (funext fun a => Fin.ext ?_)
    match a with
    | ⟨0, _⟩ => show win1_1.index t (0 : Fin 2) * 5000 + 1 * (x 0).val = (k 0).val; omega
    | ⟨1, _⟩ => show win1_1.index t (1 : Fin 2) * 128 + 1 * (x 1).val = (k 1).val; omega
  · intro x
    show V c main_v29 (((cfg1.win 3).blk t).view.emb x) = V c main_v29 x
    refine congrArg _ (funext fun a => Fin.ext ?_)
    match a with
    | ⟨0, _⟩ => show win1_3.index t (0 : Fin 2) * 128 + 1 * (x 0).val = (x 0).val; omega
    | ⟨1, _⟩ => show win1_3.index t (1 : Fin 2) * 128 + 1 * (x 1).val = (x 1).val; omega
  · intro x
    show V c main_v32 (((cfg1.win 4).blk t).view.emb x) = V c main_v32 x
    refine congrArg _ (funext fun a => Fin.ext ?_)
    match a with
    | ⟨0, _⟩ => show win1_4.index t (0 : Fin 2) * 1 + 1 * (x 0).val = (x 0).val; omega
    | ⟨1, _⟩ => show win1_4.index t (1 : Fin 2) * 128 + 1 * (x 1).val = (x 1).val; omega
  · intro x k h0 h1
    show V c main_v14 (((cfg1.win 2).blk t).view.emb x) = V c main_v14 k
    refine congrArg _ (funext fun a => Fin.ext ?_)
    match a with
    | ⟨0, _⟩ => show win1_2.index t (0 : Fin 2) * 5000 + 1 * (x 0).val = (k 0).val; omega
    | ⟨1, _⟩ => show win1_2.index t (1 : Fin 2) * 128 + 1 * (x 1).val = (k 1).val; omega
  · show win1_5.index t (0 : Fin 2) * 5000 + 1 * (j 0).val = t.val * 5000 + (j 0).val; omega
  · show win1_5.index t (1 : Fin 2) * 128 + 1 * (j 1).val = (j 1).val; omega

/-- An index of the output array is in point t's block iff each coordinate is in the block's range on its axis. -/
theorem mem_blk (t : Fin cfg1.N) (i : S500000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- Every index of the output array is in the block of the point its row falls in. -/
theorem cover (i : S500000x128.Idx) : ∃ t : Fin cfg1.N, (cfg1.win 5).flush t = true ∧ i ∈ ((cfg1.win 5).blk t).view.set := by
  have hi0 : (i 0).val < 500000 := (i 0).isLt
  have hi1 : (i 1).val < 128 := (i 1).isLt
  have ht : (i 0).val / 5000 < cfg1.N := by show (i 0).val / 5000 < 100; omega
  obtain ⟨e00, e01, e10, e11, e20, e21, e30, e31, e40, e41, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]
    omega

/-- The output array after the region is the whole-array function of the arrays the region finds. -/
theorem final (c : Dev nD) : (dat1 V c).arrAt 5 cfg1.N = whole V c :=
  (dat1 V c).arrAt_eq_of_cover 5 (whole V c) (fun t _ => flushed_eq V c t) cover

end Cert.KernelIdeal.ConvA

end
-- ==== Proof.RegionConvB.lean ====
/-
  The second message-passing region, read as a value.

  The region walks the 500000 edges in 100 tiles of 5000 rows. At tile t the body subtracts the tile's rows of the
  reversed messages from the tile's rows of the gathered aggregate, multiplies the difference [5000, 128] by the layer's
  weight [128, 128] into a zero accumulator, adds the bias row and the tile's rows of the initial edge state, and takes
  the maximum with zero. Row r of the result depends on row r of the three row operands only, so what tile t writes
  back is rows 5000 t, …, 5000 t + 4999 of ONE whole-array function of the arrays the region finds; the 100 tiles cover
  every row, so the output array ends holding that function.
-/
import proofs.«131766_j5781025981003_1_alg».proof.Proof.Gen.KernelIdeal.Frame
import proofs.«131766_j5781025981003_1_alg».proof.Proof.LibEdgeDense
import Idealize.ShloMosaic.Lib.Pipeline.Value
import Idealize.ShloMosaic.Lib.ValueIdx

set_option maxRecDepth 16384

noncomputable section

namespace Cert.KernelIdeal.ConvB

open Cert.KernelIdeal Cert.KernelIdeal.Gen
open Idealize.ShloMosaic Idealize.ShloMosaic.TcCoe Idealize.ShloMosaic.ValueIdx Idealize.SL.Sem
open Idealize.ShloMosaic.Pipeline (Dat)
open Cert.LibEdgeDense Cert.LibPlainDot

variable (V : (c : Dev nD) → (b : Ref sig .tc) → Buf (Elt Ideal) ((c : Thread nD τ).loc b))

theorem hz : (![0, 0] : Fin 2 → Nat) = fun _ => 0 := funext fun a => by fin_cases a <;> rfl

theorem plainD : Plain dot_S5000x128_S128x128_S5000x128_1_0_0_1_n_n := ⟨rfl, rfl, rfl, rfl, rfl, rfl⟩

/-- The body's one stored value at row p, column c of the tile is the whole-array message step at row o + p, column c,
    when the tile's row operands hold rows o, o + 1, … of A, R and H and the weight and the bias row are whole. -/
theorem pay_eq (x0 x1 : Vec Ideal S5000x128 .f32) (x2 : Vec Ideal S128x128 .f32) (x3 : Vec Ideal S1x128 .f32)
    (x4 : Vec Ideal S5000x128 .f32)
    (A R : FVec Ideal S500000x128 .f32) (W : S128x128.Idx → EReal) (B : S1x128.Idx → EReal) (H : S500000x128.Idx → EReal) (o : Nat)
    (h0 : ∀ (x : S5000x128.Idx) (k : S500000x128.Idx), (k 0).val = o + (x 0).val → (k 1).val = (x 1).val → x0 x = A k)
    (h1 : ∀ (x : S5000x128.Idx) (k : S500000x128.Idx), (k 0).val = o + (x 0).val → (k 1).val = (x 1).val → x1 x = R k)
    (h2 : ∀ x, x2 x = W x) (h3 : ∀ x, x3 x = B x)
    (h4 : ∀ (x : S5000x128.Idx) (k : S500000x128.Idx), (k 0).val = o + (x 0).val → (k 1).val = (x 1).val → x4 x = H k)
    (y : S5000x128.Idx) (i : S500000x128.Idx) (hi0 : (i 0).val = o + (y 0).val) (hi1 : (i 1).val = (y 1).val) :
    k2_pay1 x0 x1 x2 x3 x4 y = convRelu A R W B H i := by
  unfold k2_pay1
  exact tile_convRelu dot_S5000x128_S128x128_S5000x128_1_0_0_1_n_n plainD
    (truncf .bf16 (subf (shapeCast S5000x128 x0 shapeCasts_S5000x128_S5000x128) (shapeCast S5000x128 x1 shapeCasts_S5000x128_S5000x128)) bitsLt_bf16_f32) (truncf .bf16 (shapeCast S128x128 x2 shapeCasts_S128x128_S128x128) bitsLt_bf16_f32)
    (shapeCast S1x128 x3 shapeCasts_S1x128_S1x128) broadcasts_S1x128_S5000x128 (shapeCast S5000x128 x4 shapeCasts_S5000x128_S5000x128) A R W B H o
    (fun x k e0 e1 => congrArg₂ (· - ·)
      ((congrFun (shapeCast_self x0 shapeCasts_S5000x128_S5000x128) x).trans (h0 x k e0 e1))
      ((congrFun (shapeCast_self x1 shapeCasts_S5000x128_S5000x128) x).trans (h1 x k e0 e1)))
    (fun x => (congrFun (shapeCast_self x2 shapeCasts_S128x128_S128x128) x).trans (h2 x))
    (fun x => (congrFun (shapeCast_self x3 shapeCasts_S1x128_S1x128) x).trans (h3 x))
    (fun x k e0 e1 => (congrFun (shapeCast_self x4 shapeCasts_S5000x128_S5000x128) x).trans (h4 x k e0 e1))
    y i hi0 hi1

/-- The region's output array as one function of the arrays the region finds. -/
abbrev whole (c : Dev nD) : S500000x128.Idx → EReal :=
  convRelu (V c main_v43 : S500000x128.Idx → EReal) (V c main_v46 : S500000x128.Idx → EReal) (V c main_v48 : S128x128.Idx → EReal)
    (V c main_v51 : S1x128.Idx → EReal) (V c main_v14 : S500000x128.Idx → EReal)

/-- The printed index maps, decided over the grid: the row-tiled windows sit at block row t, the whole-array windows at
    block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the whole-array function. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k2_pay1 (iblk2 V c 0 t) (iblk2 V c 1 t) (iblk2 V c 3 t) (iblk2 V c 4 t) (iblk2 V c 2 t) j
    = whole V c (((cfg2.win 5).blk t).view.emb j)
  refine pay_eq (iblk2 V c 0 t) (iblk2 V c 1 t) (iblk2 V c 3 t) (iblk2 V c 4 t) (iblk2 V c 2 t)
    (V c main_v43) (V c main_v46) (V c main_v48) (V c main_v51) (V c main_v14) (t.val * 5000) ?_ ?_ ?_ ?_ ?_ j
    (((cfg2.win 5).blk t).view.emb j) ?_ ?_
  · intro x k h0 h1
    show V c main_v43 (((cfg2.win 0).blk t).view.emb x) = V c main_v43 k
    refine congrArg _ (funext fun a => Fin.ext ?_)
    match a with
    | ⟨0, _⟩ => show win2_0.index t (0 : Fin 2) * 5000 + 1 * (x 0).val = (k 0).val; omega
    | ⟨1, _⟩ => show win2_0.index t (1 : Fin 2) * 128 + 1 * (x 1).val = (k 1).val; omega
  · intro x k h0 h1
    show V c main_v46 (((cfg2.win 1).blk t).view.emb x) = V c main_v46 k
    refine congrArg _ (funext fun a => Fin.ext ?_)
    match a with
    | ⟨0, _⟩ => show win2_1.index t (0 : Fin 2) * 5000 + 1 * (x 0).val = (k 0).val; omega
    | ⟨1, _⟩ => show win2_1.index t (1 : Fin 2) * 128 + 1 * (x 1).val = (k 1).val; omega
  · intro x
    show V c main_v48 (((cfg2.win 3).blk t).view.emb x) = V c main_v48 x
    refine congrArg _ (funext fun a => Fin.ext ?_)
    match a with
    | ⟨0, _⟩ => show win2_3.index t (0 : Fin 2) * 128 + 1 * (x 0).val = (x 0).val; omega
    | ⟨1, _⟩ => show win2_3.index t (1 : Fin 2) * 128 + 1 * (x 1).val = (x 1).val; omega
  · intro x
    show V c main_v51 (((cfg2.win 4).blk t).view.emb x) = V c main_v51 x
    refine congrArg _ (funext fun a => Fin.ext ?_)
    match a with
    | ⟨0, _⟩ => show win2_4.index t (0 : Fin 2) * 1 + 1 * (x 0).val = (x 0).val; omega
    | ⟨1, _⟩ => show win2_4.index t (1 : Fin 2) * 128 + 1 * (x 1).val = (x 1).val; omega
  · intro x k h0 h1
    show V c main_v14 (((cfg2.win 2).blk t).view.emb x) = V c main_v14 k
    refine congrArg _ (funext fun a => Fin.ext ?_)
    match a with
    | ⟨0, _⟩ => show win2_2.index t (0 : Fin 2) * 5000 + 1 * (x 0).val = (k 0).val; omega
    | ⟨1, _⟩ => show win2_2.index t (1 : Fin 2) * 128 + 1 * (x 1).val = (k 1).val; omega
  · show win2_5.index t (0 : Fin 2) * 5000 + 1 * (j 0).val = t.val * 5000 + (j 0).val; omega
  · show win2_5.index t (1 : Fin 2) * 128 + 1 * (j 1).val = (j 1).val; omega

/-- An index of the output array is in point t's block iff each coordinate is in the block's range on its axis. -/
theorem mem_blk (t : Fin cfg2.N) (i : S500000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v52).slice (win2_5.rect t)).set ↔ _
  rw [View.set_slice_whole, Rect.mem_set_unit]
  exact Iff.rfl

/-- Every index of the output array is in the block of the point its row falls in. -/
theorem cover (i : S500000x128.Idx) : ∃ t : Fin cfg2.N, (cfg2.win 5).flush t = true ∧ i ∈ ((cfg2.win 5).blk t).view.set := by
  have hi0 : (i 0).val < 500000 := (i 0).isLt
  have hi1 : (i 1).val < 128 := (i 1).isLt
  have ht : (i 0).val / 5000 < cfg2.N := by show (i 0).val / 5000 < 100; omega
  obtain ⟨e00, e01, e10, e11, e20, e21, e30, e31, e40, e41, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    rw [e51]
    omega

/-- The output array after the region is the whole-array function of the arrays the region finds. -/
theorem final (c : Dev nD) : (dat2 V c).arrAt 5 cfg2.N = whole V c :=
  (dat2 V c).arrAt_eq_of_cover 5 (whole V c) (fun t _ => flushed_eq V c t) cover

end Cert.KernelIdeal.ConvB

end
-- ==== Proof.RegionConvC.lean ====
/-
  The third message-passing region, read as a value.

  The region walks the 500000 edges in 100 tiles of 5000 rows. At tile t the body subtracts the tile's rows of the
  reversed messages from the tile's rows of the gathered aggregate, multiplies the difference [5000, 128] by the layer's
  weight [128, 128] into a zero accumulator, adds the bias row and the tile's rows of the initial edge state, and takes
  the maximum with zero. Row r of the result depends on row r of the three row operands only, so what tile t writes
  back is rows 5000 t, …, 5000 t + 4999 of ONE whole-array function of the arrays the region finds; the 100 tiles cover
  every row, so the output array ends holding that function.
-/
import proofs.«131766_j5781025981003_1_alg».proof.Proof.Gen.KernelIdeal.Frame
import proofs.«131766_j5781025981003_1_alg».proof.Proof.LibEdgeDense
import Idealize.ShloMosaic.Lib.Pipeline.Value
import Idealize.ShloMosaic.Lib.ValueIdx

set_option maxRecDepth 16384

noncomputable section

namespace Cert.KernelIdeal.ConvC

open Cert.KernelIdeal Cert.KernelIdeal.Gen
open Idealize.ShloMosaic Idealize.ShloMosaic.TcCoe Idealize.ShloMosaic.ValueIdx Idealize.SL.Sem
open Idealize.ShloMosaic.Pipeline (Dat)
open Cert.LibEdgeDense Cert.LibPlainDot

variable (V : (c : Dev nD) → (b : Ref sig .tc) → Buf (Elt Ideal) ((c : Thread nD τ).loc b))

theorem hz : (![0, 0] : Fin 2 → Nat) = fun _ => 0 := funext fun a => by fin_cases a <;> rfl

theorem plainD : Plain dot_S5000x128_S128x128_S5000x128_1_0_0_1_n_n := ⟨rfl, rfl, rfl, rfl, rfl, rfl⟩

/-- The body's one stored value at row p, column c of the tile is the whole-array message step at row o + p, column c,
    when the tile's row operands hold rows o, o + 1, … of A, R and H and the weight and the bias row are whole. -/
theorem pay_eq (x0 x1 : Vec Ideal S5000x128 .f32) (x2 : Vec Ideal S128x128 .f32) (x3 : Vec Ideal S1x128 .f32)
    (x4 : Vec Ideal S5000x128 .f32)
    (A R : FVec Ideal S500000x128 .f32) (W : S128x128.Idx → EReal) (B : S1x128.Idx → EReal) (H : S500000x128.Idx → EReal) (o : Nat)
    (h0 : ∀ (x : S5000x128.Idx) (k : S500000x128.Idx), (k 0).val = o + (x 0).val → (k 1).val = (x 1).val → x0 x = A k)
    (h1 : ∀ (x : S5000x128.Idx) (k : S500000x128.Idx), (k 0).val = o + (x 0).val → (k 1).val = (x 1).val → x1 x = R k)
    (h2 : ∀ x, x2 x = W x) (h3 : ∀ x, x3 x = B x)
    (h4 : ∀ (x : S5000x128.Idx) (k : S500000x128.Idx), (k 0).val = o + (x 0).val → (k 1).val = (x 1).val → x4 x = H k)
    (y : S5000x128.Idx) (i : S500000x128.Idx) (hi0 : (i 0).val = o + (y 0).val) (hi1 : (i 1).val = (y 1).val) :
    k3_pay1 x0 x1 x2 x3 x4 y = convRelu A R W B H i := by
  unfold k3_pay1
  exact tile_convRelu dot_S5000x128_S128x128_S5000x128_1_0_0_1_n_n plainD
    (truncf .bf16 (subf (shapeCast S5000x128 x0 shapeCasts_S5000x128_S5000x128) (shapeCast S5000x128 x1 shapeCasts_S5000x128_S5000x128)) bitsLt_bf16_f32) (truncf .bf16 (shapeCast S128x128 x2 shapeCasts_S128x128_S128x128) bitsLt_bf16_f32)
    (shapeCast S1x128 x3 shapeCasts_S1x128_S1x128) broadcasts_S1x128_S5000x128 (shapeCast S5000x128 x4 shapeCasts_S5000x128_S5000x128) A R W B H o
    (fun x k e0 e1 => congrArg₂ (· - ·)
      ((congrFun (shapeCast_self x0 shapeCasts_S5000x128_S5000x128) x).trans (h0 x k e0 e1))
      ((congrFun (shapeCast_self x1 shapeCasts_S5000x128_S5000x128) x).trans (h1 x k e0 e1)))
    (fun x => (congrFun (shapeCast_self x2 shapeCasts_S128x128_S128x128) x).trans (h2 x))
    (fun x => (congrFun (shapeCast_self x3 shapeCasts_S1x128_S1x128) x).trans (h3 x))
    (fun x k e0 e1 => (congrFun (shapeCast_self x4 shapeCasts_S5000x128_S5000x128) x).trans (h4 x k e0 e1))
    y i hi0 hi1

/-- The region's output array as one function of the arrays the region finds. -/
abbrev whole (c : Dev nD) : S500000x128.Idx → EReal :=
  convRelu (V c main_v62 : S500000x128.Idx → EReal) (V c main_v65 : S500000x128.Idx → EReal) (V c main_v67 : S128x128.Idx → EReal)
    (V c main_v70 : S1x128.Idx → EReal) (V c main_v14 : S500000x128.Idx → EReal)

/-- The printed index maps, decided over the grid: the row-tiled windows sit at block row t, the whole-array windows at
    block zero. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the whole-array function. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k3_pay1 (iblk3 V c 0 t) (iblk3 V c 1 t) (iblk3 V c 3 t) (iblk3 V c 4 t) (iblk3 V c 2 t) j
    = whole V c (((cfg3.win 5).blk t).view.emb j)
  refine pay_eq (iblk3 V c 0 t) (iblk3 V c 1 t) (iblk3 V c 3 t) (iblk3 V c 4 t) (iblk3 V c 2 t)
    (V c main_v62) (V c main_v65) (V c main_v67) (V c main_v70) (V c main_v14) (t.val * 5000) ?_ ?_ ?_ ?_ ?_ j
    (((cfg3.win 5).blk t).view.emb j) ?_ ?_
  · intro x k h0 h1
    show V c main_v62 (((cfg3.win 0).blk t).view.emb x) = V c main_v62 k
    refine congrArg _ (funext fun a => Fin.ext ?_)
    match a with
    | ⟨0, _⟩ => show win3_0.index t (0 : Fin 2) * 5000 + 1 * (x 0).val = (k 0).val; omega
    | ⟨1, _⟩ => show win3_0.index t (1 : Fin 2) * 128 + 1 * (x 1).val = (k 1).val; omega
  · intro x k h0 h1
    show V c main_v65 (((cfg3.win 1).blk t).view.emb x) = V c main_v65 k
    refine congrArg _ (funext fun a => Fin.ext ?_)
    match a with
    | ⟨0, _⟩ => show win3_1.index t (0 : Fin 2) * 5000 + 1 * (x 0).val = (k 0).val; omega
    | ⟨1, _⟩ => show win3_1.index t (1 : Fin 2) * 128 + 1 * (x 1).val = (k 1).val; omega
  · intro x
    show V c main_v67 (((cfg3.win 3).blk t).view.emb x) = V c main_v67 x
    refine congrArg _ (funext fun a => Fin.ext ?_)
    match a with
    | ⟨0, _⟩ => show win3_3.index t (0 : Fin 2) * 128 + 1 * (x 0).val = (x 0).val; omega
    | ⟨1, _⟩ => show win3_3.index t (1 : Fin 2) * 128 + 1 * (x 1).val = (x 1).val; omega
  · intro x
    show V c main_v70 (((cfg3.win 4).blk t).view.emb x) = V c main_v70 x
    refine congrArg _ (funext fun a => Fin.ext ?_)
    match a with
    | ⟨0, _⟩ => show win3_4.index t (0 : Fin 2) * 1 + 1 * (x 0).val = (x 0).val; omega
    | ⟨1, _⟩ => show win3_4.index t (1 : Fin 2) * 128 + 1 * (x 1).val = (x 1).val; omega
  · intro x k h0 h1
    show V c main_v14 (((cfg3.win 2).blk t).view.emb x) = V c main_v14 k
    refine congrArg _ (funext fun a => Fin.ext ?_)
    match a with
    | ⟨0, _⟩ => show win3_2.index t (0 : Fin 2) * 5000 + 1 * (x 0).val = (k 0).val; omega
    | ⟨1, _⟩ => show win3_2.index t (1 : Fin 2) * 128 + 1 * (x 1).val = (k 1).val; omega
  · show win3_5.index t (0 : Fin 2) * 5000 + 1 * (j 0).val = t.val * 5000 + (j 0).val; omega
  · show win3_5.index t (1 : Fin 2) * 128 + 1 * (j 1).val = (j 1).val; omega

/-- An index of the output array is in point t's block iff each coordinate is in the block's range on its axis. -/
theorem mem_blk (t : Fin cfg3.N) (i : S500000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v71).slice (win3_5.rect t)).set ↔ _
  rw [View.set_slice_whole, Rect.mem_set_unit]
  exact Iff.rfl

/-- Every index of the output array is in the block of the point its row falls in. -/
theorem cover (i : S500000x128.Idx) : ∃ t : Fin cfg3.N, (cfg3.win 5).flush t = true ∧ i ∈ ((cfg3.win 5).blk t).view.set := by
  have hi0 : (i 0).val < 500000 := (i 0).isLt
  have hi1 : (i 1).val < 128 := (i 1).isLt
  have ht : (i 0).val / 5000 < cfg3.N := by show (i 0).val / 5000 < 100; omega
  obtain ⟨e00, e01, e10, e11, e20, e21, e30, e31, e40, e41, e50, e51⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e51]
    omega

/-- The output array after the region is the whole-array function of the arrays the region finds. -/
theorem final (c : Dev nD) : (dat3 V c).arrAt 5 cfg3.N = whole V c :=
  (dat3 V c).arrAt_eq_of_cover 5 (whole V c) (fun t _ => flushed_eq V c t) cover

end Cert.KernelIdeal.ConvC

end
-- ==== Proof.RegionNodeUpdate.lean ====
/-
  The edge-to-node region, read as a value.

  The region walks the 50000 nodes in 10 tiles of 5000 rows. At tile t the body multiplies the tile's rows of the node
  features [5000, 32] by the top weight block [32, 128] and the tile's rows of the aggregated messages [5000, 128] by
  the bottom weight block [128, 128], both into zero accumulators, adds the two products and the bias row, and takes
  the maximum with zero. Row r of the result depends on row r of the two row operands only, so what tile t writes back
  is rows 5000 t, …, 5000 t + 4999 of ONE whole-array function of the arrays the region finds; the 10 tiles cover
  every row, so the output array ends holding that function.
-/
import proofs.«131766_j5781025981003_1_alg».proof.Proof.Gen.KernelIdeal.Frame
import proofs.«131766_j5781025981003_1_alg».proof.Proof.LibEdgeDense
import Idealize.ShloMosaic.Lib.Pipeline.Value
import Idealize.ShloMosaic.Lib.ValueIdx

set_option maxRecDepth 16384

noncomputable section

namespace Cert.KernelIdeal.NodeUpdate

open Cert.KernelIdeal Cert.KernelIdeal.Gen
open Idealize.ShloMosaic Idealize.ShloMosaic.TcCoe Idealize.ShloMosaic.ValueIdx Idealize.SL.Sem
open Idealize.ShloMosaic.Pipeline (Dat)
open Cert.LibEdgeDense Cert.LibPlainDot

variable (V : (c : Dev nD) → (b : Ref sig .tc) → Buf (Elt Ideal) ((c : Thread nD τ).loc b))

theorem hz : (![0, 0] : Fin 2 → Nat) = fun _ => 0 := funext fun a => by fin_cases a <;> rfl

theorem plainL : Plain dot_S5000x32_S32x128_S5000x128_1_0_0_1_n_n := ⟨rfl, rfl, rfl, rfl, rfl, rfl⟩
theorem plainR : Plain dot_S5000x128_S128x128_S5000x128_1_0_0_1_n_n := ⟨rfl, rfl, rfl, rfl, rfl, rfl⟩

/-- The body's one stored value at row p, column c of the tile is the whole-array step at row o + p, column c, when the
    tile's two row operands hold rows o, o + 1, … of X1 and X2 and the weights and the bias row are whole. -/
theorem pay_eq (x0 : Vec Ideal S5000x32 .f32) (x1 : Vec Ideal S5000x128 .f32) (x2 : Vec Ideal S32x128 .f32)
    (x3 : Vec Ideal S128x128 .f32) (x4 : Vec Ideal S1x128 .f32)
    (X1 : S50000x32.Idx → EReal) (X2 : S50000x128.Idx → EReal) (W1 : S32x128.Idx → EReal) (W2 : S128x128.Idx → EReal)
    (B : S1x128.Idx → EReal) (o : Nat)
    (h0 : ∀ (x : S5000x32.Idx) (k : S50000x32.Idx), (k 0).val = o + (x 0).val → (k 1).val = (x 1).val → x0 x = X1 k)
    (h1 : ∀ (x : S5000x128.Idx) (k : S50000x128.Idx), (k 0).val = o + (x 0).val → (k 1).val = (x 1).val → x1 x = X2 k)
    (h2 : ∀ x, x2 x = W1 x) (h3 : ∀ x, x3 x = W2 x) (h4 : ∀ x, x4 x = B x)
    (y : S5000x128.Idx) (i : S50000x128.Idx) (hi0 : (i 0).val = o + (y 0).val) (hi1 : (i 1).val = (y 1).val) :
    k4_pay1 x0 x1 x2 x3 x4 y = dense2Relu X1 X2 W1 W2 B i := by
  unfold k4_pay1
  exact tile_dense2Relu dot_S5000x32_S32x128_S5000x128_1_0_0_1_n_n plainL dot_S5000x128_S128x128_S5000x128_1_0_0_1_n_n plainR
    (truncf .bf16 x0 bitsLt_bf16_f32) (truncf .bf16 (shapeCast S32x128 x2 shapeCasts_S32x128_S32x128) bitsLt_bf16_f32)
    (truncf .bf16 (shapeCast S5000x128 x1 shapeCasts_S5000x128_S5000x128) bitsLt_bf16_f32) (truncf .bf16 (shapeCast S128x128 x3 shapeCasts_S128x128_S128x128) bitsLt_bf16_f32)
    (shapeCast S1x128 x4 shapeCasts_S1x128_S1x128) broadcasts_S1x128_S5000x128 X1 X2 W1 W2 B o
    (fun x k e0 e1 => h0 x k e0 e1)
    (fun x k e0 e1 => (congrFun (shapeCast_self x1 shapeCasts_S5000x128_S5000x128) x).trans (h1 x k e0 e1))
    (fun x => (congrFun (shapeCast_self x2 shapeCasts_S32x128_S32x128) x).trans (h2 x))
    (fun x => (congrFun (shapeCast_self x3 shapeCasts_S128x128_S128x128) x).trans (h3 x))
    (fun x => (congrFun (shapeCast_self x4 shapeCasts_S1x128_S1x128) x).trans (h4 x))
    y i hi0 hi1

/-- The region's output array as one function of the arrays the region finds. -/
abbrev whole (c : Dev nD) : S50000x128.Idx → EReal :=
  dense2Relu (V c main_arg0 : S50000x32.Idx → EReal) (V c main_v74 : S50000x128.Idx → EReal) (V c main_v75 : S32x128.Idx → EReal)
    (V c main_v76 : S128x128.Idx → EReal) (V c main_v77 : S1x128.Idx → EReal)

/-- The printed index maps, decided over the grid: the row-tiled windows sit at block row t, the whole-array windows at
    block zero. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the whole-array function. -/
theorem flushed_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5]
  unfold out4_5
  rw [View.canon_unit_zero hz]
  simp only [View.ld_unit_zero (S := S5000x32) hz, View.ld_unit_zero (S := S5000x128) hz, View.ld_unit_zero (S := S32x128) hz,
    View.ld_unit_zero (S := S128x128) hz, View.ld_unit_zero (S := S1x128) hz]
  obtain ⟨e00, e01, e10, e11, e20, e21, e30, e31, e40, e41, e50, e51⟩ := idx_facts t
  funext j
  show k4_pay1 (iblk4 V c 0 t) (iblk4 V c 1 t) (iblk4 V c 2 t) (iblk4 V c 3 t) (iblk4 V c 4 t) j
    = whole V c (((cfg4.win 5).blk t).view.emb j)
  refine pay_eq (iblk4 V c 0 t) (iblk4 V c 1 t) (iblk4 V c 2 t) (iblk4 V c 3 t) (iblk4 V c 4 t)
    (V c main_arg0) (V c main_v74) (V c main_v75) (V c main_v76) (V c main_v77) (t.val * 5000) ?_ ?_ ?_ ?_ ?_ j
    (((cfg4.win 5).blk t).view.emb j) ?_ ?_
  · intro x k h0 h1
    show V c main_arg0 (((cfg4.win 0).blk t).view.emb x) = V c main_arg0 k
    refine congrArg _ (funext fun a => Fin.ext ?_)
    match a with
    | ⟨0, _⟩ => show win4_0.index t (0 : Fin 2) * 5000 + 1 * (x 0).val = (k 0).val; omega
    | ⟨1, _⟩ => show win4_0.index t (1 : Fin 2) * 32 + 1 * (x 1).val = (k 1).val; omega
  · intro x k h0 h1
    show V c main_v74 (((cfg4.win 1).blk t).view.emb x) = V c main_v74 k
    refine congrArg _ (funext fun a => Fin.ext ?_)
    match a with
    | ⟨0, _⟩ => show win4_1.index t (0 : Fin 2) * 5000 + 1 * (x 0).val = (k 0).val; omega
    | ⟨1, _⟩ => show win4_1.index t (1 : Fin 2) * 128 + 1 * (x 1).val = (k 1).val; omega
  · intro x
    show V c main_v75 (((cfg4.win 2).blk t).view.emb x) = V c main_v75 x
    refine congrArg _ (funext fun a => Fin.ext ?_)
    match a with
    | ⟨0, _⟩ => show win4_2.index t (0 : Fin 2) * 32 + 1 * (x 0).val = (x 0).val; omega
    | ⟨1, _⟩ => show win4_2.index t (1 : Fin 2) * 128 + 1 * (x 1).val = (x 1).val; omega
  · intro x
    show V c main_v76 (((cfg4.win 3).blk t).view.emb x) = V c main_v76 x
    refine congrArg _ (funext fun a => Fin.ext ?_)
    match a with
    | ⟨0, _⟩ => show win4_3.index t (0 : Fin 2) * 128 + 1 * (x 0).val = (x 0).val; omega
    | ⟨1, _⟩ => show win4_3.index t (1 : Fin 2) * 128 + 1 * (x 1).val = (x 1).val; omega
  · intro x
    show V c main_v77 (((cfg4.win 4).blk t).view.emb x) = V c main_v77 x
    refine congrArg _ (funext fun a => Fin.ext ?_)
    match a with
    | ⟨0, _⟩ => show win4_4.index t (0 : Fin 2) * 1 + 1 * (x 0).val = (x 0).val; omega
    | ⟨1, _⟩ => show win4_4.index t (1 : Fin 2) * 128 + 1 * (x 1).val = (x 1).val; omega
  · show win4_5.index t (0 : Fin 2) * 5000 + 1 * (j 0).val = t.val * 5000 + (j 0).val; omega
  · show win4_5.index t (1 : Fin 2) * 128 + 1 * (j 1).val = (j 1).val; omega

/-- An index of the output array is in point t's block iff each coordinate is in the block's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v78).slice (win4_5.rect t)).set ↔ _
  rw [View.set_slice_whole, Rect.mem_set_unit]
  exact Iff.rfl

/-- Every index of the output array is in the block of the point its row falls in. -/
theorem cover (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have ht : (i 0).val / 5000 < cfg4.N := by show (i 0).val / 5000 < 10; omega
  obtain ⟨e00, e01, e10, e11, e20, e21, e30, e31, e40, e41, e50, e51⟩ := idx_facts ⟨(i 0).val / 5000, ht⟩
  refine ⟨⟨(i 0).val / 5000, ht⟩, flush4_5 _, ?_⟩
  rw [mem_blk]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win4_5.index ⟨(i 0).val / 5000, ht⟩ (1 : Fin 2) * 128 ≤ (i 1).val ∧ (i 1).val < win4_5.index ⟨(i 0).val / 5000, ht⟩ (1 : Fin 2) * 128 + 128
    rw [e51]
    omega

/-- The output array after the region is the whole-array function of the arrays the region finds. -/
theorem final (c : Dev nD) : (dat4 V c).arrAt 5 cfg4.N = whole V c :=
  (dat4 V c).arrAt_eq_of_cover 5 (whole V c) (fun t _ => flushed_eq V c t) cover

end Cert.KernelIdeal.NodeUpdate

end
-- ==== Proof.KernelValue.lean ====
/-
  What the idealized kernel program's result holds, read back through the program.

  The buffer contents after the program are a fold: six stretches of host operations and, between them, five kernel
  regions whose output arrays end at whole-array functions of what each region finds (the region modules). Reading the
  result buffer back stretch by stretch and region by region gives, at every boundary, the reference's own stage:
  the two programs gather, scatter-add, swap edge pairs, slice and broadcast with the same operations on the same
  values, and each dense step between is the reference's stage by the bridge lemmas. A buffer no stretch writes and no
  region owns keeps its contents across the boundary; those facts carry the edge indices, the initial edge state and
  the arguments forward to where they are read.
-/
import proofs.«131766_j5781025981003_1_alg».proof.Proof.Gen.KernelIdeal.Frame
import proofs.«131766_j5781025981003_1_alg».proof.Proof.Gen.ReferenceIdeal.Read
import proofs.«131766_j5781025981003_1_alg».proof.Proof.Bridge
import proofs.«131766_j5781025981003_1_alg».proof.Proof.RegionEdgeInit
import proofs.«131766_j5781025981003_1_alg».proof.Proof.RegionConvA
import proofs.«131766_j5781025981003_1_alg».proof.Proof.RegionConvB
import proofs.«131766_j5781025981003_1_alg».proof.Proof.RegionConvC
import proofs.«131766_j5781025981003_1_alg».proof.Proof.RegionNodeUpdate
import Idealize.ShloMosaic.Lib.StableHlo.Run

set_option maxRecDepth 16384

noncomputable section

namespace Cert.KernelIdeal.ResultValue

open Cert.KernelIdeal Cert.KernelIdeal.Gen
open Idealize.ShloMosaic Idealize.ShloMosaic.TcCoe Idealize.SL.Sem Idealize.ShloMosaic.StableHlo
open Cert.ReferenceIdeal.Read Cert.LibEdgeDense Cert.Bridge

/-- A buffer that no operation of a stretch writes holds after the stretch what it held before. -/
macro "keep_host " b:term : tactic => `(tactic| exact StableHlo.after_of_forall_not_mem (b := Proc.devRef .tc $b) _ _ (List.forall_iff_forall_mem.mp (by
    simp only [hostOps0, hostOps1, hostOps2, hostOps3, hostOps4, hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## The launch memory at the arguments -/

theorem L0_arg0 : W0 m ρ c (Proc.devRef .tc main_arg0) = m ((c : Thread nD τ).loc main_arg0) := rfl

theorem L0_arg1 : W0 m ρ c (Proc.devRef .tc main_arg1) = m ((c : Thread nD τ).loc main_arg1) := rfl

theorem L0_arg3 : W0 m ρ c (Proc.devRef .tc main_arg3) = m ((c : Thread nD τ).loc main_arg3) := rfl

theorem L0_arg6 : W0 m ρ c (Proc.devRef .tc main_arg6) = m ((c : Thread nD τ).loc main_arg6) := rfl

theorem L0_arg7 : W0 m ρ c (Proc.devRef .tc main_arg7) = m ((c : Thread nD τ).loc main_arg7) := rfl

theorem L0_arg8 : W0 m ρ c (Proc.devRef .tc main_arg8) = m ((c : Thread nD τ).loc main_arg8) := rfl

theorem L0_arg9 : W0 m ρ c (Proc.devRef .tc main_arg9) = m ((c : Thread nD τ).loc main_arg9) := rfl

theorem L0_arg10 : W0 m ρ c (Proc.devRef .tc main_arg10) = m ((c : Thread nD τ).loc main_arg10) := rfl

theorem L0_arg11 : W0 m ρ c (Proc.devRef .tc main_arg11) = m ((c : Thread nD τ).loc main_arg11) := rfl

/-! ## After the first stretch: the edge indices, the gathered node features, the weight's two blocks, the bias row -/

theorem L1_v1 : W1 m ρ c (Proc.devRef .tc main_v1) = val_main_v1 (F := Ideal) (m ((c : Thread nD τ).loc main_arg2)) := by
  show StableHlo.after hostOps0 (W0 m ρ c) (Proc.devRef .tc main_v1) = _
  after_results
  all_goals rfl

theorem L1_v3 : W1 m ρ c (Proc.devRef .tc main_v3) = val_main_v3 (F := Ideal) (m ((c : Thread nD τ).loc main_arg2)) := by
  show StableHlo.after hostOps0 (W0 m ρ c) (Proc.devRef .tc main_v3) = _
  after_results
  all_goals rfl

theorem L1_v10 : W1 m ρ c (Proc.devRef .tc main_v10) = val_main_v10 (F := Ideal) (m ((c : Thread nD τ).loc main_arg0)) (m ((c : Thread nD τ).loc main_arg2)) := by
  show StableHlo.after hostOps0 (W0 m ρ c) (Proc.devRef .tc main_v10) = _
  after_results
  all_goals rfl

theorem L1_v11 : W1 m ρ c (Proc.devRef .tc main_v11) = extractStridedSlice S32x128 ![0, 0] (m ((c : Thread nD τ).loc main_arg4)) slices_S48x128_S32x128_0_0 := by
  show StableHlo.after hostOps0 (W0 m ρ c) (Proc.devRef .tc main_v11) = _
  after_results
  all_goals rfl

theorem L1_v12 : W1 m ρ c (Proc.devRef .tc main_v12) = extractStridedSlice S16x128 ![32, 0] (m ((c : Thread nD τ).loc main_arg4)) slices_S48x128_S16x128_32_0 := by
  show StableHlo.after hostOps0 (W0 m ρ c) (Proc.devRef .tc main_v12) = _
  after_results
  all_goals rfl

theorem L1_v13 : W1 m ρ c (Proc.devRef .tc main_v13) = shapeCast S1x128 (m ((c : Thread nD τ).loc main_arg5)) shapeCasts_S128_S1x128 := by
  show StableHlo.after hostOps0 (W0 m ρ c) (Proc.devRef .tc main_v13) = _
  after_results
  all_goals rfl

theorem L1_arg0 : W1 m ρ c (Proc.devRef .tc main_arg0) = m ((c : Thread nD τ).loc main_arg0) :=
  (by keep_host main_arg0 : W1 m ρ c (Proc.devRef .tc main_arg0) = W0 m ρ c (Proc.devRef .tc main_arg0)).trans (L0_arg0 m ρ c)

theorem L1_arg1 : W1 m ρ c (Proc.devRef .tc main_arg1) = m ((c : Thread nD τ).loc main_arg1) :=
  (by keep_host main_arg1 : W1 m ρ c (Proc.devRef .tc main_arg1) = W0 m ρ c (Proc.devRef .tc main_arg1)).trans (L0_arg1 m ρ c)

theorem L1_arg3 : W1 m ρ c (Proc.devRef .tc main_arg3) = m ((c : Thread nD τ).loc main_arg3) :=
  (by keep_host main_arg3 : W1 m ρ c (Proc.devRef .tc main_arg3) = W0 m ρ c (Proc.devRef .tc main_arg3)).trans (L0_arg3 m ρ c)

theorem L1_arg6 : W1 m ρ c (Proc.devRef .tc main_arg6) = m ((c : Thread nD τ).loc main_arg6) :=
  (by keep_host main_arg6 : W1 m ρ c (Proc.devRef .tc main_arg6) = W0 m ρ c (Proc.devRef .tc main_arg6)).trans (L0_arg6 m ρ c)

theorem L1_arg7 : W1 m ρ c (Proc.devRef .tc main_arg7) = m ((c : Thread nD τ).loc main_arg7) :=
  (by keep_host main_arg7 : W1 m ρ c (Proc.devRef .tc main_arg7) = W0 m ρ c (Proc.devRef .tc main_arg7)).trans (L0_arg7 m ρ c)

theorem L1_arg8 : W1 m ρ c (Proc.devRef .tc main_arg8) = m ((c : Thread nD τ).loc main_arg8) :=
  (by keep_host main_arg8 : W1 m ρ c (Proc.devRef .tc main_arg8) = W0 m ρ c (Proc.devRef .tc main_arg8)).trans (L0_arg8 m ρ c)

theorem L1_arg9 : W1 m ρ c (Proc.devRef .tc main_arg9) = m ((c : Thread nD τ).loc main_arg9) :=
  (by keep_host main_arg9 : W1 m ρ c (Proc.devRef .tc main_arg9) = W0 m ρ c (Proc.devRef .tc main_arg9)).trans (L0_arg9 m ρ c)

theorem L1_arg10 : W1 m ρ c (Proc.devRef .tc main_arg10) = m ((c : Thread nD τ).loc main_arg10) :=
  (by keep_host main_arg10 : W1 m ρ c (Proc.devRef .tc main_arg10) = W0 m ρ c (Proc.devRef .tc main_arg10)).trans (L0_arg10 m ρ c)

theorem L1_arg11 : W1 m ρ c (Proc.devRef .tc main_arg11) = m ((c : Thread nD τ).loc main_arg11) :=
  (by keep_host main_arg11 : W1 m ρ c (Proc.devRef .tc main_arg11) = W0 m ρ c (Proc.devRef .tc main_arg11)).trans (L0_arg11 m ρ c)

/-! ## After the edge initialisation: the initial edge state is the reference's -/

theorem L2_v14 : W2 m ρ c (Proc.devRef .tc main_v14) = val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (W2_arr m ρ c 5).trans ((Cert.KernelIdeal.EdgeInit.final (V1 m ρ) c).trans
    ((dense2Relu_congr (L1_v10 m ρ c) (L1_arg1 m ρ c) (L1_v11 m ρ c) (L1_v12 m ρ c) (L1_v13 m ρ c)).trans
      (edgeInit_eq (m ((c : Thread nD τ).loc main_arg0)) (m ((c : Thread nD τ).loc main_arg1)) (m ((c : Thread nD τ).loc main_arg2)) (m ((c : Thread nD τ).loc main_arg4)) (m ((c : Thread nD τ).loc main_arg5)))))

theorem L2_v1 : W2 m ρ c (Proc.devRef .tc main_v1) = val_main_v1 (F := Ideal) (m ((c : Thread nD τ).loc main_arg2)) :=
  (W2_of_ne m ρ c main_v1 (by decide)).trans (L1_v1 m ρ c)

theorem L2_v3 : W2 m ρ c (Proc.devRef .tc main_v3) = val_main_v3 (F := Ideal) (m ((c : Thread nD τ).loc main_arg2)) :=
  (W2_of_ne m ρ c main_v3 (by decide)).trans (L1_v3 m ρ c)

theorem L2_arg0 : W2 m ρ c (Proc.devRef .tc main_arg0) = m ((c : Thread nD τ).loc main_arg0) :=
  (W2_of_ne m ρ c main_arg0 (by decide)).trans (L1_arg0 m ρ c)

theorem L2_arg3 : W2 m ρ c (Proc.devRef .tc main_arg3) = m ((c : Thread nD τ).loc main_arg3) :=
  (W2_of_ne m ρ c main_arg3 (by decide)).trans (L1_arg3 m ρ c)

theorem L2_arg6 : W2 m ρ c (Proc.devRef .tc main_arg6) = m ((c : Thread nD τ).loc main_arg6) :=
  (W2_of_ne m ρ c main_arg6 (by decide)).trans (L1_arg6 m ρ c)

theorem L2_arg7 : W2 m ρ c (Proc.devRef .tc main_arg7) = m ((c : Thread nD τ).loc main_arg7) :=
  (W2_of_ne m ρ c main_arg7 (by decide)).trans (L1_arg7 m ρ c)

theorem L2_arg8 : W2 m ρ c (Proc.devRef .tc main_arg8) = m ((c : Thread nD τ).loc main_arg8) :=
  (W2_of_ne m ρ c main_arg8 (by decide)).trans (L1_arg8 m ρ c)

theorem L2_arg9 : W2 m ρ c (Proc.devRef .tc main_arg9) = m ((c : Thread nD τ).loc main_arg9) :=
  (W2_of_ne m ρ c main_arg9 (by decide)).trans (L1_arg9 m ρ c)

theorem L2_arg10 : W2 m ρ c (Proc.devRef .tc main_arg10) = m ((c : Thread nD τ).loc main_arg10) :=
  (W2_of_ne m ρ c main_arg10 (by decide)).trans (L1_arg10 m ρ c)

theorem L2_arg11 : W2 m ρ c (Proc.devRef .tc main_arg11) = m ((c : Thread nD τ).loc main_arg11) :=
  (W2_of_ne m ρ c main_arg11 (by decide)).trans (L1_arg11 m ρ c)

/-! ## The first message layer -/

set_option maxHeartbeats 16000000 in
theorem L3_v24 : W3 m ρ c (Proc.devRef .tc main_v24) = val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W2 m ρ c) (Proc.devRef .tc main_v24) = _
  after_results_simp
  rw [L2_v3 m ρ c, L2_v14 m ρ c, L2_v1 m ρ c]
  all_goals rfl

theorem L3_v27 : W3 m ρ c (Proc.devRef .tc main_v27) = val_main_v22 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W2 m ρ c) (Proc.devRef .tc main_v27) = _
  after_results
  rw [L2_v14 m ρ c]
  all_goals rfl

theorem L3_v29 : W3 m ρ c (Proc.devRef .tc main_v29) = val_main_v32 (F := Ideal) (m ((c : Thread nD τ).loc main_arg6)) := by
  show StableHlo.after hostOps1 (W2 m ρ c) (Proc.devRef .tc main_v29) = _
  after_results
  rw [L2_arg6 m ρ c]
  all_goals rfl

theorem L3_v32 : W3 m ρ c (Proc.devRef .tc main_v32) = shapeCast S1x128 (val_main_v35 (F := Ideal) (m ((c : Thread nD τ).loc main_arg7))) shapeCasts_S128_S1x128 := by
  show StableHlo.after hostOps1 (W2 m ρ c) (Proc.devRef .tc main_v32) = _
  after_results
  rw [L2_arg7 m ρ c]
  all_goals rfl

theorem L3_v14 : W3 m ρ c (Proc.devRef .tc main_v14) = val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (by keep_host main_v14 : W3 m ρ c (Proc.devRef .tc main_v14) = W2 m ρ c (Proc.devRef .tc main_v14)).trans (L2_v14 m ρ c)

theorem L3_v3 : W3 m ρ c (Proc.devRef .tc main_v3) = val_main_v3 (F := Ideal) (m ((c : Thread nD τ).loc main_arg2)) :=
  (by keep_host main_v3 : W3 m ρ c (Proc.devRef .tc main_v3) = W2 m ρ c (Proc.devRef .tc main_v3)).trans (L2_v3 m ρ c)

theorem L3_arg0 : W3 m ρ c (Proc.devRef .tc main_arg0) = m ((c : Thread nD τ).loc main_arg0) :=
  (by keep_host main_arg0 : W3 m ρ c (Proc.devRef .tc main_arg0) = W2 m ρ c (Proc.devRef .tc main_arg0)).trans (L2_arg0 m ρ c)

theorem L3_arg3 : W3 m ρ c (Proc.devRef .tc main_arg3) = m ((c : Thread nD τ).loc main_arg3) :=
  (by keep_host main_arg3 : W3 m ρ c (Proc.devRef .tc main_arg3) = W2 m ρ c (Proc.devRef .tc main_arg3)).trans (L2_arg3 m ρ c)

theorem L3_arg8 : W3 m ρ c (Proc.devRef .tc main_arg8) = m ((c : Thread nD τ).loc main_arg8) :=
  (by keep_host main_arg8 : W3 m ρ c (Proc.devRef .tc main_arg8) = W2 m ρ c (Proc.devRef .tc main_arg8)).trans (L2_arg8 m ρ c)

theorem L3_arg9 : W3 m ρ c (Proc.devRef .tc main_arg9) = m ((c : Thread nD τ).loc main_arg9) :=
  (by keep_host main_arg9 : W3 m ρ c (Proc.devRef .tc main_arg9) = W2 m ρ c (Proc.devRef .tc main_arg9)).trans (L2_arg9 m ρ c)

theorem L3_arg10 : W3 m ρ c (Proc.devRef .tc main_arg10) = m ((c : Thread nD τ).loc main_arg10) :=
  (by keep_host main_arg10 : W3 m ρ c (Proc.devRef .tc main_arg10) = W2 m ρ c (Proc.devRef .tc main_arg10)).trans (L2_arg10 m ρ c)

theorem L3_arg11 : W3 m ρ c (Proc.devRef .tc main_arg11) = m ((c : Thread nD τ).loc main_arg11) :=
  (by keep_host main_arg11 : W3 m ρ c (Proc.devRef .tc main_arg11) = W2 m ρ c (Proc.devRef .tc main_arg11)).trans (L2_arg11 m ρ c)

theorem L3_v1 : W3 m ρ c (Proc.devRef .tc main_v1) = val_main_v1 (F := Ideal) (m ((c : Thread nD τ).loc main_arg2)) :=
  (by keep_host main_v1 : W3 m ρ c (Proc.devRef .tc main_v1) = W2 m ρ c (Proc.devRef .tc main_v1)).trans (L2_v1 m ρ c)

theorem L3_arg6 : W3 m ρ c (Proc.devRef .tc main_arg6) = m ((c : Thread nD τ).loc main_arg6) :=
  (by keep_host main_arg6 : W3 m ρ c (Proc.devRef .tc main_arg6) = W2 m ρ c (Proc.devRef .tc main_arg6)).trans (L2_arg6 m ρ c)

theorem L3_arg7 : W3 m ρ c (Proc.devRef .tc main_arg7) = m ((c : Thread nD τ).loc main_arg7) :=
  (by keep_host main_arg7 : W3 m ρ c (Proc.devRef .tc main_arg7) = W2 m ρ c (Proc.devRef .tc main_arg7)).trans (L2_arg7 m ρ c)

theorem L4_v33 : W4 m ρ c (Proc.devRef .tc main_v33) = val_main_v40 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W4_arr m ρ c 5).trans ((Cert.KernelIdeal.ConvA.final (V3 m ρ) c).trans
    ((convRelu_congr (L3_v24 m ρ c) (L3_v27 m ρ c) (L3_v29 m ρ c) (L3_v32 m ρ c) (L3_v14 m ρ c)).trans (by
      unfold val_main_v40 val_main_v39 val_main_v38 val_main_v33 val_main_v30 val_main_v37 val_main_v36 val_main_call1_v0 val_main_call1_cst
      exact conv_eq _ _ _ _ _)))

theorem L4_v3 : W4 m ρ c (Proc.devRef .tc main_v3) = val_main_v3 (F := Ideal) (m ((c : Thread nD τ).loc main_arg2)) :=
  (W4_of_ne m ρ c main_v3 (by decide)).trans (L3_v3 m ρ c)

theorem L4_arg0 : W4 m ρ c (Proc.devRef .tc main_arg0) = m ((c : Thread nD τ).loc main_arg0) :=
  (W4_of_ne m ρ c main_arg0 (by decide)).trans (L3_arg0 m ρ c)

theorem L4_arg3 : W4 m ρ c (Proc.devRef .tc main_arg3) = m ((c : Thread nD τ).loc main_arg3) :=
  (W4_of_ne m ρ c main_arg3 (by decide)).trans (L3_arg3 m ρ c)

theorem L4_arg8 : W4 m ρ c (Proc.devRef .tc main_arg8) = m ((c : Thread nD τ).loc main_arg8) :=
  (W4_of_ne m ρ c main_arg8 (by decide)).trans (L3_arg8 m ρ c)

theorem L4_arg9 : W4 m ρ c (Proc.devRef .tc main_arg9) = m ((c : Thread nD τ).loc main_arg9) :=
  (W4_of_ne m ρ c main_arg9 (by decide)).trans (L3_arg9 m ρ c)

theorem L4_arg10 : W4 m ρ c (Proc.devRef .tc main_arg10) = m ((c : Thread nD τ).loc main_arg10) :=
  (W4_of_ne m ρ c main_arg10 (by decide)).trans (L3_arg10 m ρ c)

theorem L4_arg11 : W4 m ρ c (Proc.devRef .tc main_arg11) = m ((c : Thread nD τ).loc main_arg11) :=
  (W4_of_ne m ρ c main_arg11 (by decide)).trans (L3_arg11 m ρ c)

theorem L4_v14 : W4 m ρ c (Proc.devRef .tc main_v14) = val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (W4_arr m ρ c 2).trans (((dat1 (V3 m ρ) c).arrAt_in 2 rfl _).trans ((A_eq1 (V3 m ρ) c 2).trans (L3_v14 m ρ c)))

theorem L4_v1 : W4 m ρ c (Proc.devRef .tc main_v1) = val_main_v1 (F := Ideal) (m ((c : Thread nD τ).loc main_arg2)) :=
  (W4_of_ne m ρ c main_v1 (by decide)).trans (L3_v1 m ρ c)

theorem L4_arg6 : W4 m ρ c (Proc.devRef .tc main_arg6) = m ((c : Thread nD τ).loc main_arg6) :=
  (W4_of_ne m ρ c main_arg6 (by decide)).trans (L3_arg6 m ρ c)

theorem L4_arg7 : W4 m ρ c (Proc.devRef .tc main_arg7) = m ((c : Thread nD τ).loc main_arg7) :=
  (W4_of_ne m ρ c main_arg7 (by decide)).trans (L3_arg7 m ρ c)

/-! ## The second message layer -/

set_option maxHeartbeats 16000000 in
theorem L5_v43 : W5 m ρ c (Proc.devRef .tc main_v43) = val_main_v53 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v43) = _
  after_results_simp
  rw [L4_v3 m ρ c, L4_v33 m ρ c, L4_v1 m ρ c]
  all_goals rfl

theorem L5_v46 : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v46) = _
  after_results
  rw [L4_v33 m ρ c]
  all_goals rfl

theorem L5_v48 : W5 m ρ c (Proc.devRef .tc main_v48) = val_main_v56 (F := Ideal) (m ((c : Thread nD τ).loc main_arg6)) := by
  show StableHlo.after hostOps2 (W4 m ρ c) (Proc.devRef .tc main_v48) = _
  after_results
  rw [L4_arg6 m ρ c]
  all_goals rfl

theorem L5_v51 : W5 m ρ c (Proc.devRef .tc main_v51) = shapeCast S1x128 (val_main_v59 (F := Ideal) (m ((c : Thread nD τ).loc main_arg7))) shapeCasts_S128_S1x128 := by
  show StableHlo.after hostOps2 (W4 m ρ c) (Proc.devRef .tc main_v51) = _
  after_results
  rw [L4_arg7 m ρ c]
  all_goals rfl

theorem L5_v14 : W5 m ρ c (Proc.devRef .tc main_v14) = val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (by keep_host main_v14 : W5 m ρ c (Proc.devRef .tc main_v14) = W4 m ρ c (Proc.devRef .tc main_v14)).trans (L4_v14 m ρ c)

theorem L5_v3 : W5 m ρ c (Proc.devRef .tc main_v3) = val_main_v3 (F := Ideal) (m ((c : Thread nD τ).loc main_arg2)) :=
  (by keep_host main_v3 : W5 m ρ c (Proc.devRef .tc main_v3) = W4 m ρ c (Proc.devRef .tc main_v3)).trans (L4_v3 m ρ c)

theorem L5_arg0 : W5 m ρ c (Proc.devRef .tc main_arg0) = m ((c : Thread nD τ).loc main_arg0) :=
  (by keep_host main_arg0 : W5 m ρ c (Proc.devRef .tc main_arg0) = W4 m ρ c (Proc.devRef .tc main_arg0)).trans (L4_arg0 m ρ c)

theorem L5_arg3 : W5 m ρ c (Proc.devRef .tc main_arg3) = m ((c : Thread nD τ).loc main_arg3) :=
  (by keep_host main_arg3 : W5 m ρ c (Proc.devRef .tc main_arg3) = W4 m ρ c (Proc.devRef .tc main_arg3)).trans (L4_arg3 m ρ c)

theorem L5_arg8 : W5 m ρ c (Proc.devRef .tc main_arg8) = m ((c : Thread nD τ).loc main_arg8) :=
  (by keep_host main_arg8 : W5 m ρ c (Proc.devRef .tc main_arg8) = W4 m ρ c (Proc.devRef .tc main_arg8)).trans (L4_arg8 m ρ c)

theorem L5_arg9 : W5 m ρ c (Proc.devRef .tc main_arg9) = m ((c : Thread nD τ).loc main_arg9) :=
  (by keep_host main_arg9 : W5 m ρ c (Proc.devRef .tc main_arg9) = W4 m ρ c (Proc.devRef .tc main_arg9)).trans (L4_arg9 m ρ c)

theorem L5_arg10 : W5 m ρ c (Proc.devRef .tc main_arg10) = m ((c : Thread nD τ).loc main_arg10) :=
  (by keep_host main_arg10 : W5 m ρ c (Proc.devRef .tc main_arg10) = W4 m ρ c (Proc.devRef .tc main_arg10)).trans (L4_arg10 m ρ c)

theorem L5_arg11 : W5 m ρ c (Proc.devRef .tc main_arg11) = m ((c : Thread nD τ).loc main_arg11) :=
  (by keep_host main_arg11 : W5 m ρ c (Proc.devRef .tc main_arg11) = W4 m ρ c (Proc.devRef .tc main_arg11)).trans (L4_arg11 m ρ c)

theorem L5_v1 : W5 m ρ c (Proc.devRef .tc main_v1) = val_main_v1 (F := Ideal) (m ((c : Thread nD τ).loc main_arg2)) :=
  (by keep_host main_v1 : W5 m ρ c (Proc.devRef .tc main_v1) = W4 m ρ c (Proc.devRef .tc main_v1)).trans (L4_v1 m ρ c)

theorem L5_arg6 : W5 m ρ c (Proc.devRef .tc main_arg6) = m ((c : Thread nD τ).loc main_arg6) :=
  (by keep_host main_arg6 : W5 m ρ c (Proc.devRef .tc main_arg6) = W4 m ρ c (Proc.devRef .tc main_arg6)).trans (L4_arg6 m ρ c)

theorem L5_arg7 : W5 m ρ c (Proc.devRef .tc main_arg7) = m ((c : Thread nD τ).loc main_arg7) :=
  (by keep_host main_arg7 : W5 m ρ c (Proc.devRef .tc main_arg7) = W4 m ρ c (Proc.devRef .tc main_arg7)).trans (L4_arg7 m ρ c)

theorem L6_v52 : W6 m ρ c (Proc.devRef .tc main_v52) = val_main_v64 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W6_arr m ρ c 5).trans ((Cert.KernelIdeal.ConvB.final (V5 m ρ) c).trans
    ((convRelu_congr (L5_v43 m ρ c) (L5_v46 m ρ c) (L5_v48 m ρ c) (L5_v51 m ρ c) (L5_v14 m ρ c)).trans (by
      unfold val_main_v64 val_main_v63 val_main_v62 val_main_v57 val_main_v54 val_main_v61 val_main_v60 val_main_call2_v0 val_main_call2_cst
      exact conv_eq _ _ _ _ _)))

theorem L6_v3 : W6 m ρ c (Proc.devRef .tc main_v3) = val_main_v3 (F := Ideal) (m ((c : Thread nD τ).loc main_arg2)) :=
  (W6_of_ne m ρ c main_v3 (by decide)).trans (L5_v3 m ρ c)

theorem L6_arg0 : W6 m ρ c (Proc.devRef .tc main_arg0) = m ((c : Thread nD τ).loc main_arg0) :=
  (W6_of_ne m ρ c main_arg0 (by decide)).trans (L5_arg0 m ρ c)

theorem L6_arg3 : W6 m ρ c (Proc.devRef .tc main_arg3) = m ((c : Thread nD τ).loc main_arg3) :=
  (W6_of_ne m ρ c main_arg3 (by decide)).trans (L5_arg3 m ρ c)

theorem L6_arg8 : W6 m ρ c (Proc.devRef .tc main_arg8) = m ((c : Thread nD τ).loc main_arg8) :=
  (W6_of_ne m ρ c main_arg8 (by decide)).trans (L5_arg8 m ρ c)

theorem L6_arg9 : W6 m ρ c (Proc.devRef .tc main_arg9) = m ((c : Thread nD τ).loc main_arg9) :=
  (W6_of_ne m ρ c main_arg9 (by decide)).trans (L5_arg9 m ρ c)

theorem L6_arg10 : W6 m ρ c (Proc.devRef .tc main_arg10) = m ((c : Thread nD τ).loc main_arg10) :=
  (W6_of_ne m ρ c main_arg10 (by decide)).trans (L5_arg10 m ρ c)

theorem L6_arg11 : W6 m ρ c (Proc.devRef .tc main_arg11) = m ((c : Thread nD τ).loc main_arg11) :=
  (W6_of_ne m ρ c main_arg11 (by decide)).trans (L5_arg11 m ρ c)

theorem L6_v14 : W6 m ρ c (Proc.devRef .tc main_v14) = val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (W6_arr m ρ c 2).trans (((dat2 (V5 m ρ) c).arrAt_in 2 rfl _).trans ((A_eq2 (V5 m ρ) c 2).trans (L5_v14 m ρ c)))

theorem L6_v1 : W6 m ρ c (Proc.devRef .tc main_v1) = val_main_v1 (F := Ideal) (m ((c : Thread nD τ).loc main_arg2)) :=
  (W6_of_ne m ρ c main_v1 (by decide)).trans (L5_v1 m ρ c)

theorem L6_arg6 : W6 m ρ c (Proc.devRef .tc main_arg6) = m ((c : Thread nD τ).loc main_arg6) :=
  (W6_of_ne m ρ c main_arg6 (by decide)).trans (L5_arg6 m ρ c)

theorem L6_arg7 : W6 m ρ c (Proc.devRef .tc main_arg7) = m ((c : Thread nD τ).loc main_arg7) :=
  (W6_of_ne m ρ c main_arg7 (by decide)).trans (L5_arg7 m ρ c)

/-! ## The third message layer -/

set_option maxHeartbeats 16000000 in
theorem L7_v62 : W7 m ρ c (Proc.devRef .tc main_v62) = val_main_v77 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v62) = _
  after_results_simp
  rw [L6_v3 m ρ c, L6_v52 m ρ c, L6_v1 m ρ c]
  all_goals rfl

theorem L7_v65 : W7 m ρ c (Proc.devRef .tc main_v65) = val_main_v70 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v65) = _
  after_results
  rw [L6_v52 m ρ c]
  all_goals rfl

theorem L7_v67 : W7 m ρ c (Proc.devRef .tc main_v67) = val_main_v80 (F := Ideal) (m ((c : Thread nD τ).loc main_arg6)) := by
  show StableHlo.after hostOps3 (W6 m ρ c) (Proc.devRef .tc main_v67) = _
  after_results
  rw [L6_arg6 m ρ c]
  all_goals rfl

theorem L7_v70 : W7 m ρ c (Proc.devRef .tc main_v70) = shapeCast S1x128 (val_main_v83 (F := Ideal) (m ((c : Thread nD τ).loc main_arg7))) shapeCasts_S128_S1x128 := by
  show StableHlo.after hostOps3 (W6 m ρ c) (Proc.devRef .tc main_v70) = _
  after_results
  rw [L6_arg7 m ρ c]
  all_goals rfl

theorem L7_v14 : W7 m ρ c (Proc.devRef .tc main_v14) = val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (by keep_host main_v14 : W7 m ρ c (Proc.devRef .tc main_v14) = W6 m ρ c (Proc.devRef .tc main_v14)).trans (L6_v14 m ρ c)

theorem L7_v3 : W7 m ρ c (Proc.devRef .tc main_v3) = val_main_v3 (F := Ideal) (m ((c : Thread nD τ).loc main_arg2)) :=
  (by keep_host main_v3 : W7 m ρ c (Proc.devRef .tc main_v3) = W6 m ρ c (Proc.devRef .tc main_v3)).trans (L6_v3 m ρ c)

theorem L7_arg0 : W7 m ρ c (Proc.devRef .tc main_arg0) = m ((c : Thread nD τ).loc main_arg0) :=
  (by keep_host main_arg0 : W7 m ρ c (Proc.devRef .tc main_arg0) = W6 m ρ c (Proc.devRef .tc main_arg0)).trans (L6_arg0 m ρ c)

theorem L7_arg3 : W7 m ρ c (Proc.devRef .tc main_arg3) = m ((c : Thread nD τ).loc main_arg3) :=
  (by keep_host main_arg3 : W7 m ρ c (Proc.devRef .tc main_arg3) = W6 m ρ c (Proc.devRef .tc main_arg3)).trans (L6_arg3 m ρ c)

theorem L7_arg8 : W7 m ρ c (Proc.devRef .tc main_arg8) = m ((c : Thread nD τ).loc main_arg8) :=
  (by keep_host main_arg8 : W7 m ρ c (Proc.devRef .tc main_arg8) = W6 m ρ c (Proc.devRef .tc main_arg8)).trans (L6_arg8 m ρ c)

theorem L7_arg9 : W7 m ρ c (Proc.devRef .tc main_arg9) = m ((c : Thread nD τ).loc main_arg9) :=
  (by keep_host main_arg9 : W7 m ρ c (Proc.devRef .tc main_arg9) = W6 m ρ c (Proc.devRef .tc main_arg9)).trans (L6_arg9 m ρ c)

theorem L7_arg10 : W7 m ρ c (Proc.devRef .tc main_arg10) = m ((c : Thread nD τ).loc main_arg10) :=
  (by keep_host main_arg10 : W7 m ρ c (Proc.devRef .tc main_arg10) = W6 m ρ c (Proc.devRef .tc main_arg10)).trans (L6_arg10 m ρ c)

theorem L7_arg11 : W7 m ρ c (Proc.devRef .tc main_arg11) = m ((c : Thread nD τ).loc main_arg11) :=
  (by keep_host main_arg11 : W7 m ρ c (Proc.devRef .tc main_arg11) = W6 m ρ c (Proc.devRef .tc main_arg11)).trans (L6_arg11 m ρ c)

theorem L8_v71 : W8 m ρ c (Proc.devRef .tc main_v71) = val_main_v88 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W8_arr m ρ c 5).trans ((Cert.KernelIdeal.ConvC.final (V7 m ρ) c).trans
    ((convRelu_congr (L7_v62 m ρ c) (L7_v65 m ρ c) (L7_v67 m ρ c) (L7_v70 m ρ c) (L7_v14 m ρ c)).trans (by
      unfold val_main_v88 val_main_v87 val_main_v86 val_main_v81 val_main_v78 val_main_v85 val_main_v84 val_main_call3_v0 val_main_call3_cst
      exact conv_eq _ _ _ _ _)))

theorem L8_v3 : W8 m ρ c (Proc.devRef .tc main_v3) = val_main_v3 (F := Ideal) (m ((c : Thread nD τ).loc main_arg2)) :=
  (W8_of_ne m ρ c main_v3 (by decide)).trans (L7_v3 m ρ c)

theorem L8_arg0 : W8 m ρ c (Proc.devRef .tc main_arg0) = m ((c : Thread nD τ).loc main_arg0) :=
  (W8_of_ne m ρ c main_arg0 (by decide)).trans (L7_arg0 m ρ c)

theorem L8_arg3 : W8 m ρ c (Proc.devRef .tc main_arg3) = m ((c : Thread nD τ).loc main_arg3) :=
  (W8_of_ne m ρ c main_arg3 (by decide)).trans (L7_arg3 m ρ c)

theorem L8_arg8 : W8 m ρ c (Proc.devRef .tc main_arg8) = m ((c : Thread nD τ).loc main_arg8) :=
  (W8_of_ne m ρ c main_arg8 (by decide)).trans (L7_arg8 m ρ c)

theorem L8_arg9 : W8 m ρ c (Proc.devRef .tc main_arg9) = m ((c : Thread nD τ).loc main_arg9) :=
  (W8_of_ne m ρ c main_arg9 (by decide)).trans (L7_arg9 m ρ c)

theorem L8_arg10 : W8 m ρ c (Proc.devRef .tc main_arg10) = m ((c : Thread nD τ).loc main_arg10) :=
  (W8_of_ne m ρ c main_arg10 (by decide)).trans (L7_arg10 m ρ c)

theorem L8_arg11 : W8 m ρ c (Proc.devRef .tc main_arg11) = m ((c : Thread nD τ).loc main_arg11) :=
  (W8_of_ne m ρ c main_arg11 (by decide)).trans (L7_arg11 m ρ c)

/-! ## The node update -/

theorem L9_v74 : W9 m ρ c (Proc.devRef .tc main_v74) = val_main_v91 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps4 (W8 m ρ c) (Proc.devRef .tc main_v74) = _
  after_results
  rw [L8_v3 m ρ c, L8_v71 m ρ c]
  all_goals rfl

theorem L9_v75 : W9 m ρ c (Proc.devRef .tc main_v75) = extractStridedSlice S32x128 ![0, 0] (m ((c : Thread nD τ).loc main_arg8)) slices_S160x128_S32x128_0_0 := by
  show StableHlo.after hostOps4 (W8 m ρ c) (Proc.devRef .tc main_v75) = _
  after_results
  rw [L8_arg8 m ρ c]
  all_goals rfl

theorem L9_v76 : W9 m ρ c (Proc.devRef .tc main_v76) = extractStridedSlice S128x128 ![32, 0] (m ((c : Thread nD τ).loc main_arg8)) slices_S160x128_S128x128_32_0 := by
  show StableHlo.after hostOps4 (W8 m ρ c) (Proc.devRef .tc main_v76) = _
  after_results
  rw [L8_arg8 m ρ c]
  all_goals rfl

theorem L9_v77 : W9 m ρ c (Proc.devRef .tc main_v77) = shapeCast S1x128 (m ((c : Thread nD τ).loc main_arg9)) shapeCasts_S128_S1x128 := by
  show StableHlo.after hostOps4 (W8 m ρ c) (Proc.devRef .tc main_v77) = _
  after_results
  rw [L8_arg9 m ρ c]
  all_goals rfl

theorem L9_arg0 : W9 m ρ c (Proc.devRef .tc main_arg0) = m ((c : Thread nD τ).loc main_arg0) :=
  (by keep_host main_arg0 : W9 m ρ c (Proc.devRef .tc main_arg0) = W8 m ρ c (Proc.devRef .tc main_arg0)).trans (L8_arg0 m ρ c)

theorem L9_arg3 : W9 m ρ c (Proc.devRef .tc main_arg3) = m ((c : Thread nD τ).loc main_arg3) :=
  (by keep_host main_arg3 : W9 m ρ c (Proc.devRef .tc main_arg3) = W8 m ρ c (Proc.devRef .tc main_arg3)).trans (L8_arg3 m ρ c)

theorem L9_arg10 : W9 m ρ c (Proc.devRef .tc main_arg10) = m ((c : Thread nD τ).loc main_arg10) :=
  (by keep_host main_arg10 : W9 m ρ c (Proc.devRef .tc main_arg10) = W8 m ρ c (Proc.devRef .tc main_arg10)).trans (L8_arg10 m ρ c)

theorem L9_arg11 : W9 m ρ c (Proc.devRef .tc main_arg11) = m ((c : Thread nD τ).loc main_arg11) :=
  (by keep_host main_arg11 : W9 m ρ c (Proc.devRef .tc main_arg11) = W8 m ρ c (Proc.devRef .tc main_arg11)).trans (L8_arg11 m ρ c)

theorem L10_v78 : W10 m ρ c (Proc.devRef .tc main_v78) = val_main_v97 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_arr m ρ c 5).trans ((Cert.KernelIdeal.NodeUpdate.final (V9 m ρ) c).trans
    ((dense2Relu_congr (L9_arg0 m ρ c) (L9_v74 m ρ c) (L9_v75 m ρ c) (L9_v76 m ρ c) (L9_v77 m ρ c)).trans (by
      unfold val_main_v97 val_main_v96 val_main_v93 val_main_v92 val_main_v95 val_main_v94 val_main_call4_v0 val_main_call4_cst
      exact nodeUpdate_eq _ _ _ _)))

theorem L10_arg3 : W10 m ρ c (Proc.devRef .tc main_arg3) = m ((c : Thread nD τ).loc main_arg3) :=
  (W10_of_ne m ρ c main_arg3 (by decide)).trans (L9_arg3 m ρ c)

theorem L10_arg10 : W10 m ρ c (Proc.devRef .tc main_arg10) = m ((c : Thread nD τ).loc main_arg10) :=
  (W10_of_ne m ρ c main_arg10 (by decide)).trans (L9_arg10 m ρ c)

theorem L10_arg11 : W10 m ρ c (Proc.devRef .tc main_arg11) = m ((c : Thread nD τ).loc main_arg11) :=
  (W10_of_ne m ρ c main_arg11 (by decide)).trans (L9_arg11 m ρ c)

/-! ## The pooling and the read-out: the program's result is the reference's last stage -/

set_option maxHeartbeats 16000000 in
theorem result_eq : W11 m ρ c (Proc.devRef .tc main_v86) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W10 m ρ c) (Proc.devRef .tc main_v86) = _
  after_results_simp
  rw [L10_v78 m ρ c, L10_arg3 m ρ c, L10_arg10 m ρ c, L10_arg11 m ρ c]
  all_goals rfl

end Cert.KernelIdeal.ResultValue

end
-- ==== Proof.lean ====
/-
  A message-passing graph network on edges, computed two ways, is one function of its inputs on the extended reals.

  Both programs gather node features along each edge's source, build an initial edge state, run three message layers
  (scatter-add the edge states to their target nodes, gather the aggregate back along the source, subtract the
  reversed edge's state, a dense layer with a residual and a rectifier), aggregate once more to the nodes, update the
  nodes with a dense layer, pool the nodes per graph and read out one number per graph.

  The kernel program computes the three kinds of dense layer in row tiles of 5000 and splits the first and the last
  layer's weight into the rows that meet the node features and the rows that meet the other operand; the reference
  joins the two operands along the columns and multiplies once. Three facts make them equal:
  * a row of each dense layer depends on that row of its row operands only, so the tiles are the tiles of one
    whole-array function and together cover it (the region modules);
  * a contraction over joined columns is the sum of the contractions over each part — a sum over an interval cut in
    two, true in any commutative monoid, so nothing has to be finite (the bridge lemmas);
  * every other operation (gather, scatter-add, the pair swap, slices, broadcasts, the pooled read-out) is the same
    operation on the same values in both programs, so equal operands give equal results.
  The idealization rewrote nothing, so it preserves the kernel trivially; the frames of the two kernel programs are
  the generated ones, and the reference's frame is its run with the result dropped.
-/
import proofs.«131766_j5781025981003_1_alg».proof.Defs
import proofs.«131766_j5781025981003_1_alg».proof.Proof.Gen.Kernel
import proofs.«131766_j5781025981003_1_alg».proof.Proof.Gen.Kernel.Skeleton
import proofs.«131766_j5781025981003_1_alg».proof.Proof.Gen.Kernel.Launch
import proofs.«131766_j5781025981003_1_alg».proof.Proof.Gen.Kernel.Points
import proofs.«131766_j5781025981003_1_alg».proof.Proof.Gen.Kernel.Frame
import proofs.«131766_j5781025981003_1_alg».proof.Proof.Gen.KernelIdeal
import proofs.«131766_j5781025981003_1_alg».proof.Proof.Gen.KernelIdeal.Skeleton
import proofs.«131766_j5781025981003_1_alg».proof.Proof.Gen.KernelIdeal.Launch
import proofs.«131766_j5781025981003_1_alg».proof.Proof.Gen.KernelIdeal.Points
import proofs.«131766_j5781025981003_1_alg».proof.Proof.Gen.KernelIdeal.Frame
import proofs.«131766_j5781025981003_1_alg».proof.Proof.Gen.ReferenceIdeal
import proofs.«131766_j5781025981003_1_alg».proof.Proof.Gen.Pre_finite_inputs
import proofs.«131766_j5781025981003_1_alg».proof.Proof.Gen.ReferenceIdeal.Run
import proofs.«131766_j5781025981003_1_alg».proof.Proof.Gen.ReferenceIdeal.Read
import proofs.«131766_j5781025981003_1_alg».proof.Proof.KernelRun
import proofs.«131766_j5781025981003_1_alg».proof.Proof.KernelValue
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both runs end with the result at the reference's last stage of the kernel program's arguments: the kernel's by
    reading its result back through the program, the reference's because its arguments agree with the kernel's. -/
theorem algebraic : Cert.algebraic_KernelIdeal_ReferenceIdeal := by
  intro m ρ m' ρ' _ hagree
  refine ⟨fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.ResultValue.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v105_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
